-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S512x512 : Shape := ⟨2, ![512, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S4096x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  main_v23

def fn {F : FTy → Type} [FloatOps F] (main_arg0 : FVec F S16384x512 .f32) (main_arg1 : FVec F S4096x512 .f32) (main_arg2 : FVec F S512x512 .f32) (main_arg3 : FVec F S512x512 .f32) (main_arg4 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S16384x512 : Shape := ⟨2, ![16384, 512]⟩
abbrev S4096x512 : Shape := ⟨2, ![4096, 512]⟩
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩
abbrev S16384x4096 : Shape := ⟨2, ![16384, 4096]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S512x512, .f32⟩
  | .hbm, ⟨3, _⟩ => ⟨S512x512, .f32⟩
  | .hbm, ⟨4, _⟩ => ⟨S4096x512, .f32⟩
  | .hbm, ⟨5, _⟩ => ⟨S512x512, .f32⟩
  | .hbm, ⟨6, _⟩ => ⟨S512x512, .bf16⟩
  | .hbm, ⟨7, _⟩ => ⟨S512x512, .f32⟩
  | .hbm, ⟨8, _⟩ => ⟨S512x512, .bf16⟩
  | .hbm, ⟨9, _⟩ => ⟨S4096x512, .bf16⟩
  | .hbm, ⟨10, _⟩ => ⟨S4096x512, .bf16⟩
  | .hbm, ⟨11, _⟩ => ⟨S16384x512, .f32⟩
  | .hbm, ⟨12, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .bf16⟩
  | .local _ .vmem, ⟨4, _⟩ => ⟨S1024x512, .bf16⟩
  | .local _ .vmem, ⟨5, _⟩ => ⟨S256x512, .f32⟩
  | .local _ .vmem, ⟨6, _⟩ => ⟨S256x512, .f32⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .vmem, ⟨10, _⟩ => ⟨S256x512, .f32⟩
  | .local _ .vmem, ⟨11, _⟩ => ⟨S256x512, .f32⟩
  | .local _ .vmem, ⟨12, _⟩ => ⟨S256x4096, .f32⟩
  | .local _ .vmem, ⟨13, _⟩ => ⟨S256x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S512x512_S512x512_1_0 : S512x512.Transposes [1, 0] S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S1024x512_S1024 : S1024x512.Reduces [1] S1024
  shapeCasts_S1024_S1024x1 : S1024.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  broadcasts_S256x1_S256x512 : S256x1.Broadcasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  broadcasts_S256x1_S256x4096 : S256x1.Broadcasts S256x4096
  dot_S1024x512_S512x512_S1024x512_1_0_0_1_n_n_wf : DotDims.WF S1024x512 S512x512 S1024x512 [1] [0] [0] [1] [] []
  dot_S256x512_S512x512_S256x512_1_0_0_1_n_n_wf : DotDims.WF S256x512 S512x512 S256x512 [1] [0] [0] [1] [] []
  dot_S256x512_S4096x512_S256x4096_1_1_0_0_n_n_wf : DotDims.WF S256x512 S4096x512 S256x4096 [1] [1] [0] [0] [] []
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .bf16 = 32 ∨ (Rect.block (s := S4096x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S16384x512.size a
  hwx1_0 : ∀ i : grid1.Coords, EltTy.bits .f32 = 32 ∨ (Rect.block (s := S16384x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x512.size a
  hwx1_3 : ∀ i : grid1.Coords, EltTy.bits .bf16 = 32 ∨ (Rect.block (s := S4096x512) S4096x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S16384x512.size a
  hwx1_4 : ∀ i : grid1.Coords, EltTy.bits .f32 = 32 ∨ (Rect.block (s := S16384x512) S256x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S16384x4096.size a
  hwx1_5 : ∀ i : grid1.Coords, EltTy.bits .f32 = 32 ∨ (Rect.block (s := S16384x4096) S256x4096.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S4096x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6_0) S256x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x512 : Shape := ⟨2, ![16384, 512]⟩
abbrev S4096x512 : Shape := ⟨2, ![4096, 512]⟩
abbrev S512x512 : Shape := ⟨2, ![512, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S16384x4096 : Shape := ⟨2, ![16384, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S512x512, .f32⟩
  | .hbm, ⟨3, _⟩ => ⟨S512x512, .f32⟩
  | .hbm, ⟨4, _⟩ => ⟨S4096x512, .f32⟩
  | .hbm, ⟨5, _⟩ => ⟨S512x512, .f32⟩
  | .hbm, ⟨6, _⟩ => ⟨S16384x512, .f32⟩
  | .hbm, ⟨7, _⟩ => ⟨S512x512, .f32⟩
  | .hbm, ⟨8, _⟩ => ⟨S4096x512, .f32⟩
  | .hbm, ⟨9, _⟩ => ⟨S16384x512, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x512, .f32⟩
  | .hbm, ⟨18, _⟩ => ⟨S16384x512, .f32⟩
  | .hbm, ⟨19, _⟩ => ⟨S4096x512, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x512, .f32⟩
  | .hbm, ⟨28, _⟩ => ⟨S4096x512, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S16384x4096, .f32⟩
  | .hbm, ⟨52, _⟩ => ⟨S16384x4096, .f32⟩
  | .hbm, ⟨53, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  transposes_S512x512_S512x512_1_0 : S512x512.Transposes [1, 0] S512x512
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S16384x4096 : S_.BroadcastsInDim S16384x4096 (![] : Fin 0 → Fin S16384x4096.rank)
  reducesTo_S16384x4096_S16384_d1 : S16384x4096.ReducesTo [1] S16384
  bcast_S_S16384 : S_.BroadcastsInDim S16384 (![] : Fin 0 → Fin S16384.rank)
  bcast_S16384x1_S16384x4096_0_1 : S16384x1.BroadcastsInDim S16384x4096 (![0, 1] : Fin 2 → Fin S16384x4096.rank)
  dot_S16384x512_S512x512_S16384x512_1_0_0_1_n_n_wf : DotDims.WF S16384x512 S512x512 S16384x512 [1] [0] [0] [1] [] []
  dot_S4096x512_S512x512_S4096x512_1_0_0_1_n_n_wf : DotDims.WF S4096x512 S512x512 S4096x512 [1] [0] [0] [1] [] []
  dot_S16384x512_S4096x512_S16384x4096_1_1_0_0_n_n_wf : DotDims.WF S16384x512 S4096x512 S16384x4096 [1] [1] [0] [0] [] []
  dot_S16384x4096_S4096x512_S16384x512_1_0_0_1_n_n_wf : DotDims.WF S16384x4096 S4096x512 S16384x512 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf
def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.LibERealMatmul.lean ====
import Mathlib.Data.EReal.Basic
import Mathlib.Data.EReal.Operations
import Mathlib.Algebra.BigOperators.Fin
import Mathlib.Data.Fintype.BigOperators
import Mathlib.Logic.Equiv.Fin.Basic

/-!
# Finite extended reals, reassociation of a triple matrix product, blocked sums

Multiplication does not distribute over addition on all of `EReal` (for instance
`(1 + -1) * ⊤ = 0` while `1 * ⊤ + -1 * ⊤ = ⊤ + ⊥ = ⊥`), so the identity
`a · (h · w) = (a · h) · w` for matrices over `EReal` needs every entry to be finite.
Addition alone is commutative and associative on `EReal`, so splitting a sum over an
index range into consecutive blocks needs no hypothesis.
-/

namespace Cert.LibERealMatmul

open Finset

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih =>
    rw [Finset.sum_insert ha, Finset.sum_insert ha, EReal.coe_add, ih]

/-- An extended real is finite when it is the coercion of a real number. -/
def IsFin (x : EReal) : Prop := ∃ r : ℝ, x = (r : EReal)

/-- Finite means different from both infinities. -/
theorem isFin_iff (x : EReal) : IsFin x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

/-- Zero is finite. -/
theorem isFin_zero : IsFin 0 := ⟨0, EReal.coe_zero.symm⟩

/-- One is finite. -/
theorem isFin_one : IsFin 1 := ⟨1, rfl⟩

/-- The coercion of a real number is finite. -/
theorem isFin_coe (r : ℝ) : IsFin (r : EReal) := ⟨r, rfl⟩

/-- The sum of two finite extended reals is finite. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The product of two finite extended reals is finite. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The negation of a finite extended real is finite. -/
theorem IsFin.neg {x : EReal} (hx : IsFin x) : IsFin (-x) := by
  obtain ⟨a, rfl⟩ := hx
  exact ⟨-a, (EReal.coe_neg a).symm⟩

/-- The difference of two finite extended reals is finite. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The maximum of two finite extended reals is finite. -/
theorem IsFin.max {x y : EReal} (hx : IsFin x) (hy : IsFin y) : IsFin (x ⊔ y) := by
  obtain ⟨a, rfl⟩ := hx
  obtain ⟨b, rfl⟩ := hy
  exact ⟨a ⊔ b, (EReal.coe_strictMono.monotone.map_max).symm⟩

/-- The minimum of two finite extended reals is finite. -/
theorem IsFin.min {x y : EReal} (hx : IsFin x) (hy : IsFin y) : IsFin (x ⊓ y) := by
  obtain ⟨a, rfl⟩ := hx
  obtain ⟨b, rfl⟩ := hy
  exact ⟨a ⊓ b, (EReal.coe_strictMono.monotone.map_min).symm⟩

/-- A finite sum of finite extended reals is finite. -/
theorem IsFin.sum {ι : Type*} (s : Finset ι) (f : ι → EReal) (hf : ∀ i ∈ s, IsFin (f i)) :
    IsFin (∑ i ∈ s, f i) := by
  classical
  induction s using Finset.induction_on with
  | empty => simpa using isFin_zero
  | insert a s ha ih =>
    rw [Finset.sum_insert ha]
    exact (hf a (Finset.mem_insert_self a s)).add
      (ih fun i hi => hf i (Finset.mem_insert_of_mem hi))

/-- A sum over a whole finite type of finite extended reals is finite. -/
theorem IsFin.sum_univ {ι : Type*} [Fintype ι] (f : ι → EReal) (hf : ∀ i, IsFin (f i)) :
    IsFin (∑ i, f i) :=
  IsFin.sum Finset.univ f fun i _ => hf i

/-- Reassociation of a vector–matrix–vector product over finite extended reals:
`∑ i, a i * (∑ j, h i j * w j) = ∑ j, (∑ i, a i * h i j) * w j` when every `a i`,
`h i j` and `w j` is finite.  (Read with `a` a fixed row of the left matrix and `w` a
fixed column of the right matrix, this is `A · (H · W) = (A · H) · W` entry by entry.) -/
theorem matmul_assoc {ι κ : Type*} [Fintype ι] [Fintype κ]
    (a : ι → EReal) (h : ι → κ → EReal) (w : κ → EReal)
    (ha : ∀ i, IsFin (a i)) (hh : ∀ i j, IsFin (h i j)) (hw : ∀ j, IsFin (w j)) :
    ∑ i, a i * (∑ j, h i j * w j) = ∑ j, (∑ i, a i * h i j) * w j := by
  choose a' ha' using ha
  choose h' hh' using hh
  choose w' hw' using hw
  obtain rfl : a = fun i => ((a' i : ℝ) : EReal) := funext ha'
  obtain rfl : h = fun i j => ((h' i j : ℝ) : EReal) := funext fun i => funext (hh' i)
  obtain rfl : w = fun j => ((w' j : ℝ) : EReal) := funext hw'
  simp only [← EReal.coe_mul, ← coe_sum]
  congr 1
  simp only [Finset.mul_sum, Finset.sum_mul]
  rw [Finset.sum_comm]
  simp only [mul_assoc]

/-- One block: adding a sum to a zero accumulator gives the sum. -/
theorem blocked_sum1 {n : ℕ} (f : Fin n → EReal) : 0 + ∑ k, f k = ∑ k, f k :=
  zero_add _

/-- Three blocks: accumulating the three block sums `∑ k, f 0 k`, `∑ k, f 1 k`, `∑ k, f 2 k`
one after the other onto a zero accumulator gives the sum over all pairs
`(block, position in block)`. -/
theorem blocked_sum3 (n : ℕ) (f : Fin 3 → Fin n → EReal) :
    ((0 + ∑ k, f 0 k) + ∑ k, f 1 k) + ∑ k, f 2 k = ∑ p : Fin 3 × Fin n, f p.1 p.2 := by
  rw [Fintype.sum_prod_type', Fin.sum_univ_three, zero_add]

/-- Any number `m` of blocks of length `n`: the sum over `Fin (m * n)` is the sum over blocks
`i : Fin m` of the sum over positions `k : Fin n`, where block `i`, position `k` is the flat
index `i * n + k`. -/
theorem blocked_sum_fin (m n : ℕ) (g : Fin (m * n) → EReal)
    (hlt : ∀ (i : Fin m) (k : Fin n), (i : ℕ) * n + (k : ℕ) < m * n) :
    ∑ i : Fin m, ∑ k : Fin n, g ⟨(i : ℕ) * n + (k : ℕ), hlt i k⟩ = ∑ j : Fin (m * n), g j := by
  rw [← (finProdFinEquiv (m := m) (n := n)).sum_comp g, Fintype.sum_prod_type]
  refine Finset.sum_congr rfl fun i _ => Finset.sum_congr rfl fun k _ => ?_
  congr 1
  apply Fin.ext
  simp [finProdFinEquiv, Nat.mul_comm, Nat.add_comm]

/-- Three blocks of length `n` over the flat index range `Fin (3 * n)`: block `b`
(`b = 0, 1, 2`), position `k : Fin n` is the flat index `b * n + k`, written literally as
`0 * n + k`, `1 * n + k`, `2 * n + k`.  Accumulating the three block sums one after the other
onto a zero accumulator gives the sum over the whole range. -/
theorem blocked_sum3_fin (n : ℕ) (g : Fin (3 * n) → EReal) :
    ((0 + ∑ k : Fin n, g ⟨0 * n + (k : ℕ), by omega⟩)
        + ∑ k : Fin n, g ⟨1 * n + (k : ℕ), by omega⟩)
        + ∑ k : Fin n, g ⟨2 * n + (k : ℕ), by omega⟩ = ∑ j : Fin (3 * n), g j := by
  have hlt : ∀ (i : Fin 3) (k : Fin n), (i : ℕ) * n + (k : ℕ) < 3 * n := by
    intro i k
    have hi : (i : ℕ) ≤ 2 := by omega
    have := Nat.mul_le_mul_right n hi
    omega
  rw [← blocked_sum_fin 3 n g hlt, Fin.sum_univ_three, zero_add]
  rfl

end Cert.LibERealMatmul
-- ==== Proof.Spec.lean ====
/- The function both programs compute, written once over the extended reals, index by index.

   Rows of `X` (queries) and of `A` (anchors) are projected by `Wq` and `Wk` (entry `(r, h)` is the sum over `d` of
   `X r d * W h d`), each projected row is divided by the larger of its Euclidean norm and a small positive literal, the
   similarity of a query row and an anchor row is the sum over `h` of the products of their normalised entries, each
   similarity is rounded to the nearest multiple of the bin width (divide by the literal, round half to even, multiply
   back), a row of rounded similarities is turned into softmax weights (subtract the row maximum, exponentiate, divide by
   the row sum), and the output row is the weighted sum of the rows of `V`.

   Also here: on finite extended reals the detour `s + (r - s)` is `r`, and a similarity of finite inputs is finite —
   the two facts that let a straight-through rounding `s + (round s - s)` be read as `round s`. -/
import Idealize.ShloMosaic.PureOps.Ideal
import Idealize.ShloMosaic.Lib.ValueIdx
import proofs.«133617_j57810259804634_2_alg».proof.Proof.LibERealMatmul

noncomputable section

namespace Cert.RelAttn

open Idealize.ShloMosaic Cert.LibERealMatmul

/-- The floor under a norm (the f32 nearest to 1e-12). -/
abbrev epsLit : EReal := Ideal.ofBits .f32 0x2B8CBCCC#32
/-- The bin width (the f32 nearest to 0.05). -/
abbrev binLit : EReal := Ideal.ofBits .f32 0x3D4CCCCD#32
/-- The value a row maximum starts from (the pattern of minus infinity). -/
abbrev negInfLit : EReal := Ideal.ofBits .f32 0xFF800000#32

/-- Row `r` of `X` against row `h` of `W`. -/
def proj {R : Nat} (X : Fin R → Fin 512 → EReal) (W : Fin 512 → Fin 512 → EReal) (r : Fin R) (h : Fin 512) : EReal :=
  ∑ d : Fin 512, X r d * W h d

/-- A row divided by the larger of its Euclidean norm and `epsLit`. -/
def l2n {R : Nat} (Q : Fin R → Fin 512 → EReal) (r : Fin R) (h : Fin 512) : EReal :=
  Ideal.div (Q r h) (max (Ideal.sqrt (∑ h' : Fin 512, Q r h' * Q r h')) epsLit)

/-- The inner product of a normalised query row and a normalised anchor row. -/
def sim {R : Nat} (Qn : Fin R → Fin 512 → EReal) (Kn : Fin 4096 → Fin 512 → EReal) (b : Fin R) (a : Fin 4096) : EReal :=
  ∑ h : Fin 512, Qn b h * Kn a h

/-- Rounding to the nearest multiple of the bin width, ties to even. -/
def quant (s : EReal) : EReal := Ideal.liftRound Ideal.roundHalfEven (Ideal.div s binLit) * binLit

/-- The maximum of a row, folded from `negInfLit`. -/
def rowMax (f : Fin 4096 → EReal) : EReal := (Finset.univ : Finset (Fin 4096)).fold max negInfLit f

/-- Softmax weights of a row. -/
def softW (f : Fin 4096 → EReal) (a : Fin 4096) : EReal :=
  Ideal.div (Ideal.exp (f a - rowMax f)) (∑ a' : Fin 4096, Ideal.exp (f a' - rowMax f))

/-- A weighted sum of the rows of `V`. -/
def mix (w : Fin 4096 → EReal) (V : Fin 4096 → Fin 512 → EReal) (h : Fin 512) : EReal :=
  ∑ a : Fin 4096, w a * V a h

/-- The normalised keys: the anchors projected and normalised. -/
def keys (A : Fin 4096 → Fin 512 → EReal) (Wk : Fin 512 → Fin 512 → EReal) : Fin 4096 → Fin 512 → EReal :=
  l2n (proj A Wk)

/-- The similarities of the queries `X` against normalised keys `Kn`. -/
def simK {R : Nat} (X : Fin R → Fin 512 → EReal) (Wq : Fin 512 → Fin 512 → EReal) (Kn : Fin 4096 → Fin 512 → EReal) :
    Fin R → Fin 4096 → EReal :=
  sim (l2n (proj X Wq)) Kn

/-- The output rows from the queries, normalised keys `Kn` and values `V`. -/
def outK {R : Nat} (X : Fin R → Fin 512 → EReal) (Wq : Fin 512 → Fin 512 → EReal) (Kn : Fin 4096 → Fin 512 → EReal)
    (V : Fin 4096 → Fin 512 → EReal) (b : Fin R) (h : Fin 512) : EReal :=
  mix (softW fun a => quant (simK X Wq Kn b a)) V h

/-! ## The same functions over arrays indexed by a shape's indices -/

/-- A rank-two array read by its two coordinates. -/
abbrev curry2 {n0 n1 : Nat} (x : (⟨2, ![n0, n1]⟩ : Shape).Idx → EReal) : Fin n0 → Fin n1 → EReal :=
  fun a b => x (ValueIdx.ix2 a b)

/-- The normalised keys as a [4096, 512] array, from the anchors and the key weights (both as [rows, 512] arrays). -/
def keysArr (A : (⟨2, ![4096, 512]⟩ : Shape).Idx → EReal) (Wk : (⟨2, ![512, 512]⟩ : Shape).Idx → EReal) :
    (⟨2, ![4096, 512]⟩ : Shape).Idx → EReal :=
  fun i => keys (curry2 A) (curry2 Wk) (i 0) (i 1)

/-- The similarities as a [16384, 4096] array, from the queries, the query weights and normalised keys. -/
def simArr (X : (⟨2, ![16384, 512]⟩ : Shape).Idx → EReal) (Wq : (⟨2, ![512, 512]⟩ : Shape).Idx → EReal)
    (Kn : (⟨2, ![4096, 512]⟩ : Shape).Idx → EReal) : (⟨2, ![16384, 4096]⟩ : Shape).Idx → EReal :=
  fun i => simK (curry2 X) (curry2 Wq) (curry2 Kn) (i 0) (i 1)

/-- The output as a [16384, 512] array, from the queries, the query weights, normalised keys and the values. -/
def outArr (X : (⟨2, ![16384, 512]⟩ : Shape).Idx → EReal) (Wq : (⟨2, ![512, 512]⟩ : Shape).Idx → EReal)
    (Kn : (⟨2, ![4096, 512]⟩ : Shape).Idx → EReal) (V : (⟨2, ![4096, 512]⟩ : Shape).Idx → EReal) :
    (⟨2, ![16384, 512]⟩ : Shape).Idx → EReal :=
  fun i => outK (curry2 X) (curry2 Wq) (curry2 Kn) (curry2 V) (i 0) (i 1)

theorem keysArr_ix2 (A : (⟨2, ![4096, 512]⟩ : Shape).Idx → EReal) (Wk : (⟨2, ![512, 512]⟩ : Shape).Idx → EReal)
    (a : Fin 4096) (h : Fin 512) : keysArr A Wk (ValueIdx.ix2 a h) = keys (curry2 A) (curry2 Wk) a h := rfl

theorem curry2_keysArr (A : (⟨2, ![4096, 512]⟩ : Shape).Idx → EReal) (Wk : (⟨2, ![512, 512]⟩ : Shape).Idx → EReal) :
    curry2 (keysArr A Wk) = keys (curry2 A) (curry2 Wk) := rfl

theorem simArr_ix2 (X : (⟨2, ![16384, 512]⟩ : Shape).Idx → EReal) (Wq : (⟨2, ![512, 512]⟩ : Shape).Idx → EReal)
    (Kn : (⟨2, ![4096, 512]⟩ : Shape).Idx → EReal) (b : Fin 16384) (a : Fin 4096) :
    simArr X Wq Kn (ValueIdx.ix2 b a) = simK (curry2 X) (curry2 Wq) (curry2 Kn) b a := rfl

theorem outArr_ix2 (X : (⟨2, ![16384, 512]⟩ : Shape).Idx → EReal) (Wq : (⟨2, ![512, 512]⟩ : Shape).Idx → EReal)
    (Kn : (⟨2, ![4096, 512]⟩ : Shape).Idx → EReal) (V : (⟨2, ![4096, 512]⟩ : Shape).Idx → EReal) (b : Fin 16384) (h : Fin 512) :
    outArr X Wq Kn V (ValueIdx.ix2 b h) = outK (curry2 X) (curry2 Wq) (curry2 Kn) (curry2 V) b h := rfl

/-! ## Finiteness -/

theorem add_sub_cancel_fin {s r : EReal} (hs : IsFin s) (hr : IsFin r) : s + (r - s) = r := by
  obtain ⟨a, rfl⟩ := hs
  obtain ⟨b, rfl⟩ := hr
  rw [← EReal.coe_sub, ← EReal.coe_add]
  congr 1; ring

theorem epsLit_pos : ∃ e : ℝ, 0 < e ∧ epsLit = (e : EReal) := by
  refine ⟨_, ?_, by simp [epsLit, Ideal.ofBits, Ideal.ieee, -EReal.coe_mul]; rfl⟩
  norm_num

theorem binLit_pos : ∃ e : ℝ, 0 < e ∧ binLit = (e : EReal) := by
  refine ⟨_, ?_, by simp [binLit, Ideal.ofBits, Ideal.ieee, -EReal.coe_mul]; rfl⟩
  norm_num

theorem div_isFin {x y : EReal} (hx : IsFin x) {e : ℝ} (he : e ≠ 0) (hy : y = (e : EReal)) : IsFin (Ideal.div x y) := by
  subst hy
  rw [Ideal.div_coe he]
  exact hx.mul (isFin_coe _)

theorem proj_isFin {R : Nat} {X : Fin R → Fin 512 → EReal} {W : Fin 512 → Fin 512 → EReal}
    (hX : ∀ r d, IsFin (X r d)) (hW : ∀ h d, IsFin (W h d)) (r : Fin R) (h : Fin 512) : IsFin (proj X W r h) :=
  IsFin.sum_univ _ fun d => (hX r d).mul (hW h d)

theorem l2n_isFin {R : Nat} {Q : Fin R → Fin 512 → EReal} (hQ : ∀ r h, IsFin (Q r h)) (r : Fin R) (h : Fin 512) :
    IsFin (l2n Q r h) := by
  unfold l2n
  choose q hq using hQ
  obtain ⟨e, he, hE⟩ := epsLit_pos
  have hss : (∑ h' : Fin 512, Q r h' * Q r h') = ((∑ h' : Fin 512, q r h' * q r h' : ℝ) : EReal) := by
    rw [coe_sum]; exact Finset.sum_congr rfl fun h' _ => by rw [hq r h', EReal.coe_mul]
  have hnn : ¬ (∑ h' : Fin 512, q r h' * q r h' : ℝ) < 0 :=
    not_lt.mpr (Finset.sum_nonneg fun h' _ => mul_self_nonneg _)
  rw [hss, Ideal.sqrt_coe, if_neg hnn, hE]
  refine div_isFin (hq r h ▸ isFin_coe _) (e := max (Real.sqrt (∑ h' : Fin 512, q r h' * q r h')) e) ?_ ?_
  · exact (lt_of_lt_of_le he (le_max_right _ _)).ne'
  · exact (EReal.coe_strictMono.monotone.map_max).symm

theorem sim_isFin {R : Nat} {Qn : Fin R → Fin 512 → EReal} {Kn : Fin 4096 → Fin 512 → EReal}
    (hQ : ∀ r h, IsFin (Qn r h)) (hK : ∀ a h, IsFin (Kn a h)) (b : Fin R) (a : Fin 4096) : IsFin (sim Qn Kn b a) :=
  IsFin.sum_univ _ fun h => (hQ b h).mul (hK a h)

theorem quant_isFin {s : EReal} (hs : IsFin s) : IsFin (quant s) := by
  unfold quant
  obtain ⟨e, he, hE⟩ := binLit_pos
  obtain ⟨d, hd⟩ := div_isFin hs he.ne' hE
  rw [hd, Ideal.liftRound_coe, hE]
  exact (isFin_coe _).mul (isFin_coe _)

/-- The similarities of finite queries against the keys of finite anchors are finite. -/
theorem simK_keys_isFin {R : Nat} {X : Fin R → Fin 512 → EReal} {Wq Wk : Fin 512 → Fin 512 → EReal}
    {A : Fin 4096 → Fin 512 → EReal} (hX : ∀ r d, IsFin (X r d)) (hWq : ∀ h d, IsFin (Wq h d))
    (hA : ∀ r d, IsFin (A r d)) (hWk : ∀ h d, IsFin (Wk h d)) (b : Fin R) (a : Fin 4096) :
    IsFin (simK X Wq (keys A Wk) b a) :=
  sim_isFin (l2n_isFin (proj_isFin hX hWq)) (l2n_isFin (proj_isFin hA hWk)) b a

/-- A straight-through rounding of a finite similarity is the rounding. -/
theorem straight_through {s : EReal} (hs : IsFin s) : s + (quant s - s) = quant s :=
  add_sub_cancel_fin hs (quant_isFin hs)

end Cert.RelAttn

end
-- ==== Proof.PreFinite.lean ====
import proofs.«133617_j57810259804634_2_alg».proof.Pre_finite_inputs
import proofs.«133617_j57810259804634_2_alg».proof.Proof.LibERealMatmul
import Idealize.ShloMosaic.Lib.ReduceAll
import Idealize.ShloMosaic.Lib.ValueIdx
import Idealize.ShloMosaic.PureOps.Ideal

/-!
# The input precondition, read back entry by entry

The precondition on the five input arrays is, for each array `a`, the conjunction over all
entries of `|a i| < +∞`, and then the conjunction of the five results. Over the extended
reals, `|x| = max x (-x)`, and `max x (-x) < ⊤` fails at both infinities
(`max ⊤ ⊥ = max ⊥ ⊤ = ⊤`), so it holds exactly when `x` is a real number.
-/

namespace Cert.PreFinite

open Idealize.ShloMosaic Cert.LibERealMatmul

/-- The bit pattern `0x7F800000` (sign 0, exponent all ones, fraction 0) denotes `+∞`. -/
theorem posInf_eq_top : Ideal.ofBits .f32 0x7F800000#32 = (⊤ : EReal) := by
  simp [Ideal.ofBits, Ideal.ieee]

/-- If `max x (-x) < ⊤` then `x` is a real number: at `x = ⊥` the maximum is `-⊥ = ⊤`,
    at `x = ⊤` it is `⊤` itself, and neither is below `⊤`. -/
theorem isFin_of_abs_lt_top (x : EReal) (h : max x (-x) < ⊤) : IsFin x := by
  induction x using EReal.rec with
  | bot => simp at h
  | coe r => exact ⟨r, rfl⟩
  | top => simp at h

/-- One entry of the comparison array: the word `[|x| < +∞]` is 1 only for a real `x`. -/
theorem isFin_of_cmp (x : Ideal .f32)
    (h : FloatOps.cmpf (F := Ideal) .olt (FloatOps.hostAbsf x) (FloatOps.ofBits .f32 0x7F800000#32) = 1#1) :
    IsFin x := by
  rw [Ideal.ofBits_def, posInf_eq_top] at h
  change Ideal.cmp .olt (max x (-x)) ⊤ = 1#1 at h
  apply isFin_of_abs_lt_top
  by_contra hn
  simp [Ideal.cmp, hn] at h

/-- The scalar result shape has exactly one index. -/
instance : Subsingleton Cert.Pre_finite_inputs.S_.Idx := ⟨fun a b => funext fun d => d.elim0⟩

/-- One array: if the conjunction over all entries of `[|a i| < +∞]` is 1, every entry is real. -/
theorem all_isFin {s : Shape} {axes : List (Fin s.rank)}
    (bc : Cert.Pre_finite_inputs.S_.BroadcastsInDim s (![] : Fin 0 → Fin s.rank))
    (red : s.ReducesTo axes Cert.Pre_finite_inputs.S_) (hu : 0 < Cert.Pre_finite_inputs.S_.numel)
    (a : FVec Ideal s .f32) (j : Cert.Pre_finite_inputs.S_.Idx)
    (e : Host.reduce IntOp.andi
          (cmpf .olt (Host.absf a)
            (broadcastInDim s ![] bc (constant Cert.Pre_finite_inputs.S_ .f32 0x7F800000#32)))
          (constantI Cert.Pre_finite_inputs.S_ 1 1#1) red hu j = 1#1) :
    ∀ i, IsFin (a i) := fun i =>
  isFin_of_cmp (a i) (Host.reduce_andi_all _ _ red hu j e i)

variable [Cert.Pre_finite_inputs.Facts]

open Cert.Pre_finite_inputs in
/-- The whole precondition: all five arrays have only real entries. -/
theorem finite_of_pre (a0 : FVec Ideal S16384x512 .f32) (a1 : FVec Ideal S4096x512 .f32)
    (a2 a3 : FVec Ideal S512x512 .f32) (a4 : FVec Ideal S4096x512 .f32)
    (h : Cert.Pre_finite_inputs.fn (F := Ideal) a0 a1 a2 a3 a4 = fun _ => 1#1) :
    (∀ i, IsFin (a0 i)) ∧ (∀ i, IsFin (a1 i)) ∧ (∀ i, IsFin (a2 i)) ∧ (∀ i, IsFin (a3 i)) ∧
      (∀ i, IsFin (a4 i)) := by
  have h0 := congrFun h ValueIdx.ix0
  unfold Cert.Pre_finite_inputs.fn Cert.Pre_finite_inputs.fn_part1 at h0
  dsimp only [andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_isFin _ _ _ a0 _ h0', all_isFin _ _ _ a1 _ h1, all_isFin _ _ _ a2 _ h2,
    all_isFin _ _ _ a3 _ h3, all_isFin _ _ _ a4 _ h4⟩

end Cert.PreFinite
-- ==== Proof.RefIsSpec.lean ====
/- The reference program's two results, read one operation at a time, are the specification's arrays.

   Each numbered value of the reference is read at a pair of coordinates from the values it is built from: a
   contraction is a sum over the contracted coordinate, a row sum starts from zero, a broadcast repeats a row's value
   along the row, and an elementwise operation acts on the entries. Chaining these readings from the arguments up gives
   the projections, the normalised rows, the similarities, their rounding, the softmax weights and the output, each
   equal to the specification's function of the same name at the same coordinates. The straight-through form of the
   rounding, `s + (round s - s)`, is `round s` because the similarities of finite arguments are finite. -/
import proofs.«133617_j57810259804634_2_alg».proof.Proof.Spec
import proofs.«133617_j57810259804634_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
  Cert.RelAttn Cert.LibERealMatmul

/-- The array types of the reference's arguments and values, at the extended reals. -/
abbrev Arr (s : Shape) : Type := (⟨s, .f32⟩ : BufTy).Contents (Elt Ideal)

/-! ## The projections -/

/-- Entry `(b, h)` of the projected queries: row `b` of the queries against row `h` of the query weights (the
    transposed weights are read back at swapped coordinates). -/
theorem v1_ix2 (x0 : Arr S16384x512) (x2 : Arr S512x512) (b : Fin 16384) (h : Fin 512) :
    val_main_v1 (F := Ideal) x0 x2 (ix2 b h) = proj (curry2 x0) (curry2 x2) b h := by
  rw [val_main_v1_apply]
  unfold proj
  refine Finset.sum_congr rfl fun d _ => ?_
  rw [val_main_v0_apply]
  have e1 : lidx_main_v1 (ix2 b h) d = ix2 b d :=
    funext fun a => Fin.ext (by match a with | ⟨0, _⟩ => rfl | ⟨1, _⟩ => rfl)
  have e2 : idx_main_v0 (ridx_main_v1 (ix2 b h) d) = ix2 h d :=
    funext fun a => Fin.ext (by match a with | ⟨0, _⟩ => rfl | ⟨1, _⟩ => rfl)
  rw [e1, e2]

/-- Entry `(a, h)` of the projected anchors. -/
theorem v3_ix2 (x1 : Arr S4096x512) (x3 : Arr S512x512) (a : Fin 4096) (h : Fin 512) :
    val_main_v3 (F := Ideal) x1 x3 (ix2 a h) = proj (curry2 x1) (curry2 x3) a h := by
  rw [val_main_v3_apply]
  unfold proj
  refine Finset.sum_congr rfl fun d _ => ?_
  rw [val_main_v2_apply]
  have e1 : lidx_main_v3 (ix2 a h) d = ix2 a d :=
    funext fun c => Fin.ext (by match c with | ⟨0, _⟩ => rfl | ⟨1, _⟩ => rfl)
  have e2 : idx_main_v2 (ridx_main_v3 (ix2 a h) d) = ix2 h d :=
    funext fun c => Fin.ext (by match c with | ⟨0, _⟩ => rfl | ⟨1, _⟩ => rfl)
  rw [e1, e2]

/-! ## The normalised rows -/

/-- The sum of squares of projected query row `b`: the row sum starts from the zero literal. -/
theorem v5_ix1 (x0 : Arr S16384x512) (x2 : Arr S512x512) (b : Fin 16384) :
    val_main_v5 (F := Ideal) x0 x2 (ix1 b)
      = ∑ h' : Fin 512, proj (curry2 x0) (curry2 x2) b h' * proj (curry2 x0) (curry2 x2) b h' := by
  rw [val_main_v5_apply, val_main_cst_apply, Ideal.ofBits_def, Ideal.ofBits_zero_f32, zero_add]
  refine Finset.sum_congr rfl fun k _ => ?_
  have e : idx_main_v5 (ix1 b) k = ix2 b k :=
    funext fun a => Fin.ext (by match a with | ⟨0, _⟩ => rfl | ⟨1, _⟩ => rfl)
  rw [e, val_main_v4_apply, Ideal.mulf_def, v1_ix2]

/-- The divisor of query row `b`: the larger of the row's Euclidean norm and the floor literal. -/
theorem v9_ix2 (x0 : Arr S16384x512) (x2 : Arr S512x512) (b : Fin 16384) :
    val_main_v9 (F := Ideal) x0 x2 (ix2 b (0 : Fin 1))
      = max (Ideal.sqrt (∑ h' : Fin 512, proj (curry2 x0) (curry2 x2) b h' * proj (curry2 x0) (curry2 x2) b h')) epsLit := by
  rw [val_main_v9_apply, val_main_v7_apply, val_main_v6_apply, val_main_v8_apply, val_main_cst_0_apply]
  have e : idx_main_v6 (ix2 b (0 : Fin 1)) = ix1 b :=
    funext fun a => Fin.ext (by match a with | ⟨0, _⟩ => rfl)
  rw [e, v5_ix1, Ideal.maximumf_def, Ideal.hostUnary_sqrt_def, Ideal.ofBits_def]

/-- Entry `(b, h)` of the normalised queries. -/
theorem v11_ix2 (x0 : Arr S16384x512) (x2 : Arr S512x512) (b : Fin 16384) (h : Fin 512) :
    val_main_v11 (F := Ideal) x0 x2 (ix2 b h) = l2n (proj (curry2 x0) (curry2 x2)) b h := by
  rw [val_main_v11_apply, val_main_v10_apply]
  have e : idx_main_v10 (ix2 b h) = ix2 b (0 : Fin 1) :=
    funext fun a => Fin.ext (by match a with | ⟨0, _⟩ => rfl | ⟨1, _⟩ => rfl)
  rw [e, v9_ix2, v1_ix2, Ideal.hostDivf_def]
  rfl

/-- The sum of squares of projected anchor row `a`. -/
theorem v13_ix1 (x1 : Arr S4096x512) (x3 : Arr S512x512) (a : Fin 4096) :
    val_main_v13 (F := Ideal) x1 x3 (ix1 a)
      = ∑ h' : Fin 512, proj (curry2 x1) (curry2 x3) a h' * proj (curry2 x1) (curry2 x3) a h' := by
  rw [val_main_v13_apply, val_main_cst_1_apply, Ideal.ofBits_def, Ideal.ofBits_zero_f32, zero_add]
  refine Finset.sum_congr rfl fun k _ => ?_
  have e : idx_main_v13 (ix1 a) k = ix2 a k :=
    funext fun c => Fin.ext (by match c with | ⟨0, _⟩ => rfl | ⟨1, _⟩ => rfl)
  rw [e, val_main_v12_apply, Ideal.mulf_def, v3_ix2]

/-- The divisor of anchor row `a`. -/
theorem v17_ix2 (x1 : Arr S4096x512) (x3 : Arr S512x512) (a : Fin 4096) :
    val_main_v17 (F := Ideal) x1 x3 (ix2 a (0 : Fin 1))
      = max (Ideal.sqrt (∑ h' : Fin 512, proj (curry2 x1) (curry2 x3) a h' * proj (curry2 x1) (curry2 x3) a h')) epsLit := by
  rw [val_main_v17_apply, val_main_v15_apply, val_main_v14_apply, val_main_v16_apply, val_main_cst_2_apply]
  have e : idx_main_v14 (ix2 a (0 : Fin 1)) = ix1 a :=
    funext fun c => Fin.ext (by match c with | ⟨0, _⟩ => rfl)
  rw [e, v13_ix1, Ideal.maximumf_def, Ideal.hostUnary_sqrt_def, Ideal.ofBits_def]

/-- Entry `(a, h)` of the normalised keys. -/
theorem v19_ix2 (x1 : Arr S4096x512) (x3 : Arr S512x512) (a : Fin 4096) (h : Fin 512) :
    val_main_v19 (F := Ideal) x1 x3 (ix2 a h) = keys (curry2 x1) (curry2 x3) a h := by
  rw [val_main_v19_apply, val_main_v18_apply]
  have e : idx_main_v18 (ix2 a h) = ix2 a (0 : Fin 1) :=
    funext fun c => Fin.ext (by match c with | ⟨0, _⟩ => rfl | ⟨1, _⟩ => rfl)
  rw [e, v17_ix2, v3_ix2, Ideal.hostDivf_def]
  rfl

/-! ## The similarities -/

/-- Entry `(b, a)` of the similarities: normalised query row `b` against normalised key row `a`. -/
theorem v20_ix2 (x0 : Arr S16384x512) (x1 : Arr S4096x512) (x2 x3 : Arr S512x512) (b : Fin 16384) (a : Fin 4096) :
    val_main_v20 (F := Ideal) x0 x1 x2 x3 (ix2 b a)
      = simK (curry2 x0) (curry2 x2) (keys (curry2 x1) (curry2 x3)) b a := by
  rw [val_main_v20_apply]
  unfold simK sim
  refine Finset.sum_congr rfl fun k _ => ?_
  have e1 : lidx_main_v20 (ix2 b a) k = ix2 b k :=
    funext fun c => Fin.ext (by match c with | ⟨0, _⟩ => rfl | ⟨1, _⟩ => rfl)
  have e2 : ridx_main_v20 (ix2 b a) k = ix2 a k :=
    funext fun c => Fin.ext (by match c with | ⟨0, _⟩ => rfl | ⟨1, _⟩ => rfl)
  rw [e1, e2, v11_ix2, v19_ix2]

/-- The reference's second result is the specification's similarities. -/
theorem sims_eq (x0 : Arr S16384x512) (x1 : Arr S4096x512) (x2 x3 : Arr S512x512) :
    val_main_v20 (F := Ideal) x0 x1 x2 x3 = simArr x0 x2 (keysArr x1 x3) := by
  funext i
  obtain ⟨b, a, rfl⟩ : ∃ (b : Fin 16384) (a : Fin 4096), i = ix2 b a := ⟨i 0, i 1, eq_ix2 i⟩
  rw [v20_ix2, simArr_ix2, curry2_keysArr]

/-! ## The rounded similarities -/

/-- Row `b` of the rounded similarities. -/
abbrev qrow (x0 : Arr S16384x512) (x1 : Arr S4096x512) (x2 x3 : Arr S512x512) (b : Fin 16384) : Fin 4096 → EReal :=
  fun a => quant (simK (curry2 x0) (curry2 x2) (keys (curry2 x1) (curry2 x3)) b a)

/-- Entry `(b, a)` of the rounding: divide by the bin width, round half to even, multiply back. -/
theorem v25_ix2 (x0 : Arr S16384x512) (x1 : Arr S4096x512) (x2 x3 : Arr S512x512) (b : Fin 16384) (a : Fin 4096) :
    val_main_v25 (F := Ideal) x0 x1 x2 x3 (ix2 b a) = qrow x0 x1 x2 x3 b a := by
  rw [val_main_v25_apply, val_main_v23_apply, val_main_v22_apply, val_main_v21_apply, val_main_v24_apply,
    val_main_cst_3_apply, val_main_cst_4_apply, v20_ix2, Ideal.mulf_def, Ideal.hostUnary_roundeven_def,
    Ideal.hostDivf_def, Ideal.ofBits_def]
  rfl

/-- The straight-through form `s + (round s - s)` at `(b, a)` is the rounding, the similarity being finite. -/
theorem v27_ix2 (x0 : Arr S16384x512) (x1 : Arr S4096x512) (x2 x3 : Arr S512x512)
    (h0 : ∀ i, IsFin (x0 i)) (h1 : ∀ i, IsFin (x1 i)) (h2 : ∀ i, IsFin (x2 i)) (h3 : ∀ i, IsFin (x3 i))
    (b : Fin 16384) (a : Fin 4096) :
    val_main_v27 (F := Ideal) x0 x1 x2 x3 (ix2 b a) = qrow x0 x1 x2 x3 b a := by
  rw [val_main_v27_apply, val_main_v26_apply, v25_ix2, v20_ix2, Ideal.addf_def, Ideal.subf_def]
  exact straight_through (simK_keys_isFin (fun r d => h0 (ix2 r d)) (fun h d => h2 (ix2 h d))
    (fun r d => h1 (ix2 r d)) (fun h d => h3 (ix2 h d)) b a)

/-! ## The row maximum -/

/-- The literal a row maximum starts from is the least extended real, so it is neutral for `max`. -/
theorem negInf_max (y : EReal) : max negInfLit y = y := by
  have e : negInfLit = ⊥ := by simp [negInfLit, Ideal.ofBits, Ideal.ieee]
  rw [e]
  exact max_eq_right bot_le

/-- The maximum of row `b`: the fold of `max` over the row's coordinate, from the starting literal. -/
theorem v28_ix1 (x0 : Arr S16384x512) (x1 : Arr S4096x512) (x2 x3 : Arr S512x512)
    (h0 : ∀ i, IsFin (x0 i)) (h1 : ∀ i, IsFin (x1 i)) (h2 : ∀ i, IsFin (x2 i)) (h3 : ∀ i, IsFin (x3 i))
    (b : Fin 16384) :
    val_main_v28 (F := Ideal) x0 x1 x2 x3 (ix1 b) = rowMax (qrow x0 x1 x2 x3 b) := by
  have hr : S16384x4096.Reduces [1] S16384 :=
    ⟨reducesTo_S16384x4096_S16384_d1.1, Nat.one_pos, reducesTo_S16384x4096_S16384_d1.2⟩
  unfold val_main_v28
  rw [Host.reduce_eq_fold_single FloatOps.maximumf _ _ _ hr h_S_ (ix1 b), val_main_cst_5_apply]
  have hf : (val_main_v27 (F := Ideal) x0 x1 x2 x3 ∘ hr.lift (ix1 b)) = qrow x0 x1 x2 x3 b :=
    funext fun (a : Fin 4096) => by
      have e : hr.lift (ix1 b) a = ix2 b a :=
        funext fun c => Fin.ext (by match c with | ⟨0, _⟩ => rfl | ⟨1, _⟩ => rfl)
      show val_main_v27 (F := Ideal) x0 x1 x2 x3 (hr.lift (ix1 b) a) = _
      rw [e, v27_ix2 x0 x1 x2 x3 h0 h1 h2 h3]
  exact congrArg (fun f => Finset.fold max negInfLit f (Finset.univ : Finset (Fin 4096))) hf

/-- Taking the larger of the starting literal and the row maximum changes nothing. -/
theorem v30_ix1 (x0 : Arr S16384x512) (x1 : Arr S4096x512) (x2 x3 : Arr S512x512)
    (h0 : ∀ i, IsFin (x0 i)) (h1 : ∀ i, IsFin (x1 i)) (h2 : ∀ i, IsFin (x2 i)) (h3 : ∀ i, IsFin (x3 i))
    (b : Fin 16384) :
    val_main_v30 (F := Ideal) x0 x1 x2 x3 (ix1 b) = rowMax (qrow x0 x1 x2 x3 b) := by
  rw [val_main_v30_apply, val_main_v29_apply, val_main_cst_6_apply, v28_ix1 x0 x1 x2 x3 h0 h1 h2 h3,
    Ideal.maximumf_def, Ideal.ofBits_def]
  exact negInf_max _

/-! ## The softmax weights -/

/-- Entry `(b, a)` of the exponentials: the rounded similarity less its row's maximum, exponentiated. -/
theorem v34_ix2 (x0 : Arr S16384x512) (x1 : Arr S4096x512) (x2 x3 : Arr S512x512)
    (h0 : ∀ i, IsFin (x0 i)) (h1 : ∀ i, IsFin (x1 i)) (h2 : ∀ i, IsFin (x2 i)) (h3 : ∀ i, IsFin (x3 i))
    (b : Fin 16384) (a : Fin 4096) :
    val_main_v34 (F := Ideal) x0 x1 x2 x3 (ix2 b a)
      = Ideal.exp (qrow x0 x1 x2 x3 b a - rowMax (qrow x0 x1 x2 x3 b)) := by
  rw [val_main_v34_apply, val_main_v33_apply, val_main_v32_apply, val_main_v31_apply]
  have e1 : idx_main_v32 (ix2 b a) = ix2 b (0 : Fin 1) :=
    funext fun c => Fin.ext (by match c with | ⟨0, _⟩ => rfl | ⟨1, _⟩ => rfl)
  have e2 : idx_main_v31 (ix2 b (0 : Fin 1)) = ix1 b :=
    funext fun c => Fin.ext (by match c with | ⟨0, _⟩ => rfl)
  rw [e1, e2, v30_ix1 x0 x1 x2 x3 h0 h1 h2 h3, v27_ix2 x0 x1 x2 x3 h0 h1 h2 h3, Ideal.hostUnary_exp_def,
    Ideal.subf_def]

/-- The sum of row `b`'s exponentials, from the zero literal. -/
theorem v35_ix1 (x0 : Arr S16384x512) (x1 : Arr S4096x512) (x2 x3 : Arr S512x512)
    (h0 : ∀ i, IsFin (x0 i)) (h1 : ∀ i, IsFin (x1 i)) (h2 : ∀ i, IsFin (x2 i)) (h3 : ∀ i, IsFin (x3 i))
    (b : Fin 16384) :
    val_main_v35 (F := Ideal) x0 x1 x2 x3 (ix1 b)
      = ∑ a' : Fin 4096, Ideal.exp (qrow x0 x1 x2 x3 b a' - rowMax (qrow x0 x1 x2 x3 b)) := by
  rw [val_main_v35_apply, val_main_cst_7_apply, Ideal.ofBits_def, Ideal.ofBits_zero_f32, zero_add]
  refine Finset.sum_congr rfl fun k _ => ?_
  have e : idx_main_v35 (ix1 b) k = ix2 b k :=
    funext fun c => Fin.ext (by match c with | ⟨0, _⟩ => rfl | ⟨1, _⟩ => rfl)
  rw [e, v34_ix2 x0 x1 x2 x3 h0 h1 h2 h3]

/-- Entry `(b, a)` of the weights: the exponential over its row's sum. -/
theorem v38_ix2 (x0 : Arr S16384x512) (x1 : Arr S4096x512) (x2 x3 : Arr S512x512)
    (h0 : ∀ i, IsFin (x0 i)) (h1 : ∀ i, IsFin (x1 i)) (h2 : ∀ i, IsFin (x2 i)) (h3 : ∀ i, IsFin (x3 i))
    (b : Fin 16384) (a : Fin 4096) :
    val_main_v38 (F := Ideal) x0 x1 x2 x3 (ix2 b a) = softW (qrow x0 x1 x2 x3 b) a := by
  rw [val_main_v38_apply, val_main_v37_apply, val_main_v36_apply]
  have e1 : idx_main_v37 (ix2 b a) = ix2 b (0 : Fin 1) :=
    funext fun c => Fin.ext (by match c with | ⟨0, _⟩ => rfl | ⟨1, _⟩ => rfl)
  have e2 : idx_main_v36 (ix2 b (0 : Fin 1)) = ix1 b :=
    funext fun c => Fin.ext (by match c with | ⟨0, _⟩ => rfl)
  rw [e1, e2, v35_ix1 x0 x1 x2 x3 h0 h1 h2 h3, v34_ix2 x0 x1 x2 x3 h0 h1 h2 h3, Ideal.hostDivf_def]
  rfl

/-! ## The output -/

/-- Entry `(b, h)` of the output: row `b`'s weights against column `h` of the values. -/
theorem v39_ix2 (x0 : Arr S16384x512) (x1 : Arr S4096x512) (x2 x3 : Arr S512x512) (x4 : Arr S4096x512)
    (h0 : ∀ i, IsFin (x0 i)) (h1 : ∀ i, IsFin (x1 i)) (h2 : ∀ i, IsFin (x2 i)) (h3 : ∀ i, IsFin (x3 i))
    (b : Fin 16384) (h : Fin 512) :
    val_main_v39 (F := Ideal) x0 x1 x2 x3 x4 (ix2 b h)
      = outK (curry2 x0) (curry2 x2) (keys (curry2 x1) (curry2 x3)) (curry2 x4) b h := by
  rw [val_main_v39_apply]
  unfold outK mix
  refine Finset.sum_congr rfl fun k _ => ?_
  have e1 : lidx_main_v39 (ix2 b h) k = ix2 b k :=
    funext fun c => Fin.ext (by match c with | ⟨0, _⟩ => rfl | ⟨1, _⟩ => rfl)
  have e2 : ridx_main_v39 (ix2 b h) k = ix2 k h :=
    funext fun c => Fin.ext (by match c with | ⟨0, _⟩ => rfl | ⟨1, _⟩ => rfl)
  rw [e1, e2, v38_ix2 x0 x1 x2 x3 h0 h1 h2 h3]

/-- The reference's first result is the specification's output, the arguments being finite. -/
theorem out_eq (x0 : Arr S16384x512) (x1 : Arr S4096x512) (x2 x3 : Arr S512x512) (x4 : Arr S4096x512)
    (h0 : ∀ i, IsFin (x0 i)) (h1 : ∀ i, IsFin (x1 i)) (h2 : ∀ i, IsFin (x2 i)) (h3 : ∀ i, IsFin (x3 i)) :
    val_main_v39 (F := Ideal) x0 x1 x2 x3 x4 = outArr x0 x2 (keysArr x1 x3) x4 := by
  funext i
  obtain ⟨b, h, rfl⟩ : ∃ (b : Fin 16384) (h : Fin 512), i = ix2 b h := ⟨i 0, i 1, eq_ix2 i⟩
  rw [v39_ix2 x0 x1 x2 x3 x4 h0 h1 h2 h3, outArr_ix2, curry2_keysArr]

end Cert.ReferenceIdeal.RefValue

end
-- ==== Proof.KernelRun.lean ====
/- The idealized kernel's run with its two result arrays named.

   The program is two gridded regions after a short stretch of host operations. The contents of the TensorCore's buffers
   at each boundary are a fold through the program: the launch memory, then the host operations' results, then after
   each region its arrays at what the write-backs of all grid points leave. The run below is the same launch over the
   same segments as the frame statement's, read at the end not only at the argument arrays but also at the two result
   arrays, which therefore hold the last fold's contents. -/
import proofs.«133617_j57810259804634_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the two result arrays at the contents the last region leaves, and the
    argument arrays as launched. -/
theorem run_named : θ_run defs (onTc (τ := τ) (main (F := F))) ⟨m, fun _ => 0, ρ⟩ (fun r => ∀ c : Dev nD,
      r.2.mem ((c.tc : Thread nD τ).loc main_v6_0) = W3 m ρ c (Proc.devRef .tc main_v6_0)
      ∧ r.2.mem ((c.tc : Thread nD τ).loc main_v6_1) = W3 m ρ c (Proc.devRef .tc main_v6_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6_0 (by decide)),
       h c _ (mem_uc main_v6_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The first result array is the second region's window 4 after all its write-backs. -/
theorem out0_eq (c : Dev nD) : W3 m ρ c (Proc.devRef .tc main_v6_0) = (dat1 (V2 m ρ) c).arrAt 4 cfg1.N :=
  W3_arr m ρ c 4

/-- The second result array is the second region's window 5 after all its write-backs. -/
theorem out1_eq (c : Dev nD) : W3 m ρ c (Proc.devRef .tc main_v6_1) = (dat1 (V2 m ρ) c).arrAt 5 cfg1.N :=
  W3_arr m ρ c 5

end Cert.KernelIdeal.Hand

end
-- ==== Proof.Payloads.lean ====
/- Each kernel body's stored value, read at one index, is the specification applied to the blocks the body loaded.

   The first part reads the operations that are not pointwise at an index given by its coordinates: a column cast
   `[a] → [a, 1]`, a column broadcast `[a, 1] → [a, b]`, a sum and a maximum along the second axis, and the two matrix
   products (rows against columns, rows against rows). The second part composes them along each body: a projected block,
   its rows divided by their norms, the similarities, and the softmax-weighted sum of the value rows. -/
import proofs.«133617_j57810259804634_2_alg».proof.Proof.Spec
import proofs.«133617_j57810259804634_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## Operations that are not pointwise, read at coordinates -/

section Generic
variable {α : Type}

/-- A vector `[a]` cast to the column `[a, 1]` reads, at `(p, 0)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Generic

/-- The sum along the second axis of an `[a, b]` block, at row `p`, is the sum over the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The maximum along the second axis of an `[a, b]` block, at row `p`, is the fold of `max` over the row's entries
    from the value the accumulator's word encodes. -/
theorem rowMax_apply {a b : ℕ} (src : FVec Ideal ⟨2, ![a, b]⟩ .f32) (acc : BitVec 32)
    (h : (⟨2, ![a, b]⟩ : Shape).Reduces [1] ⟨1, ![a]⟩)
    (hφ : FKind.Formats .f32) (hacc : acc = FKind.maximumf.neutral .f32 hφ) (p : Fin a) :
    multiReduction (F := Ideal) .maximumf [1] ⟨1, ![a]⟩ src acc h hφ hacc (ix1 p)
      = (Finset.univ : Finset (Fin b)).fold max (Ideal.ofBits .f32 acc) fun k => src (ix2 p k) := by
  refine (Ideal.multiReduction_maximumf_single src acc h hφ hacc (ix1 p)).trans ?_
  refine congrArg (fun f => (Finset.univ : Finset (Fin b)).fold max (Ideal.ofBits .f32 acc) f) (funext fun k => ?_)
  refine congrArg src (funext fun ax => Fin.ext ?_)
  match ax with
  | ⟨0, _⟩ => rfl
  | ⟨1, _⟩ => rfl

/-! ## The two matrix products -/

/-- Rows against columns: contract the second axis of an `[m, k]` block with the first axis of a `[k, n]` block. -/
abbrev rowsCols (m k n : ℕ) (wf : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

/-- Rows against rows: contract the second axis of an `[m, k]` block with the second axis of an `[n, k]` block. -/
abbrev rowsRows (m k n : ℕ) (wf : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], wf⟩

section RowsCols
variable {m k n : ℕ} (wf : DotDims.WF ⟨2, ![m, k]⟩ ⟨2, ![k, n]⟩ ⟨2, ![m, n]⟩ [1] [0] [0] [1] [] [])

/-- The left operand's row is the output's row. -/
theorem rowsCols_lhs0 (i : (⟨2, ![m, n]⟩ : Shape).Idx) (q : (rowsCols m k n wf).contr.Idx) :
    ((rowsCols m k n wf).lhsIdx i q 0).val = (i 0).val := by
  unfold DotDims.lhsIdx
  rw [dif_neg (show ¬(0 : Fin (⟨2, ![m, k]⟩ : Shape).rank) ∈ (rowsCols m k n wf).lhsBatch from List.not_mem_nil),
    dif_pos (show (0 : Fin (⟨2, ![m, k]⟩ : Shape).rank) ∈ (rowsCols m k n wf).lhsNonContracting from List.mem_singleton.mpr rfl)]
  rfl

/-- The right operand's column is the output's column. -/
theorem rowsCols_rhs1 (i : (⟨2, ![m, n]⟩ : Shape).Idx) (q : (rowsCols m k n wf).contr.Idx) :
    ((rowsCols m k n wf).rhsIdx i q 1).val = (i 1).val := by
  unfold DotDims.rhsIdx
  rw [dif_neg (show ¬(1 : Fin (⟨2, ![k, n]⟩ : Shape).rank) ∈ (rowsCols m k n wf).rhsBatch from List.not_mem_nil),
    dif_pos (show (1 : Fin (⟨2, ![k, n]⟩ : Shape).rank) ∈ (rowsCols m k n wf).rhsNonContracting from List.mem_singleton.mpr rfl)]
  rfl

/-- The product of an `[m, k]` block and a `[k, n]` block, accumulated into the zero block, at `(p, q)`: the sum over
    the shared axis of the row's entry times the column's entry. -/
theorem matmul_rowsCols_apply {φ₁ φ₂ : FTy}
    (lhs : FVec Ideal ⟨2, ![m, k]⟩ φ₁) (rhs : FVec Ideal ⟨2, ![k, n]⟩ φ₂) (p : Fin m) (q : Fin n) :
    matmul (rowsCols m k n wf) none lhs rhs (constant (F := Ideal) ⟨2, ![m, n]⟩ .f32 0x00000000#32) (ix2 p q)
      = ∑ d : Fin k, lhs (ix2 p d) * rhs (ix2 d q) := by
  show FloatOps.matmul (rowsCols m k n wf) none lhs rhs (constant (F := Ideal) ⟨2, ![m, n]⟩ .f32 0x00000000#32) (ix2 p q) = _
  rw [Ideal.matmul_constant_zero_apply, ← Equiv.sum_comp (contrEquiv1 (rowsCols m k n wf) k rfl rfl).symm]
  refine Finset.sum_congr rfl fun d _ => ?_
  have hk := contrEquiv1_symm_val (rowsCols m k n wf) k rfl rfl d
  have el : (rowsCols m k n wf).lhsIdx (ix2 p q) ((contrEquiv1 (rowsCols m k n wf) k rfl rfl).symm d) = ix2 p d :=
    funext fun a => Fin.ext (by
      match a with
      | ⟨0, _⟩ => exact rowsCols_lhs0 wf _ _
      | ⟨1, _⟩ => exact ((rowsCols m k n wf).lhsIdx_val_of_single rfl _ _).trans hk)
  have er : (rowsCols m k n wf).rhsIdx (ix2 p q) ((contrEquiv1 (rowsCols m k n wf) k rfl rfl).symm d) = ix2 d q :=
    funext fun a => Fin.ext (by
      match a with
      | ⟨0, _⟩ => exact ((rowsCols m k n wf).rhsIdx_val_of_single rfl _ _).trans hk
      | ⟨1, _⟩ => exact rowsCols_rhs1 wf _ _)
  rw [el, er]

end RowsCols

section RowsRows
variable {m k n : ℕ} (wf : DotDims.WF ⟨2, ![m, k]⟩ ⟨2, ![n, k]⟩ ⟨2, ![m, n]⟩ [1] [1] [0] [0] [] [])

/-- The left operand's row is the output's row. -/
theorem rowsRows_lhs0 (i : (⟨2, ![m, n]⟩ : Shape).Idx) (q : (rowsRows m k n wf).contr.Idx) :
    ((rowsRows m k n wf).lhsIdx i q 0).val = (i 0).val := by
  unfold DotDims.lhsIdx
  rw [dif_neg (show ¬(0 : Fin (⟨2, ![m, k]⟩ : Shape).rank) ∈ (rowsRows m k n wf).lhsBatch from List.not_mem_nil),
    dif_pos (show (0 : Fin (⟨2, ![m, k]⟩ : Shape).rank) ∈ (rowsRows m k n wf).lhsNonContracting from List.mem_singleton.mpr rfl)]
  rfl

/-- The right operand's row is the output's column. -/
theorem rowsRows_rhs0 (i : (⟨2, ![m, n]⟩ : Shape).Idx) (q : (rowsRows m k n wf).contr.Idx) :
    ((rowsRows m k n wf).rhsIdx i q 0).val = (i 1).val := by
  unfold DotDims.rhsIdx
  rw [dif_neg (show ¬(0 : Fin (⟨2, ![n, k]⟩ : Shape).rank) ∈ (rowsRows m k n wf).rhsBatch from List.not_mem_nil),
    dif_pos (show (0 : Fin (⟨2, ![n, k]⟩ : Shape).rank) ∈ (rowsRows m k n wf).rhsNonContracting from List.mem_singleton.mpr rfl)]
  rfl

/-- The product of an `[m, k]` block and an `[n, k]` block along their second axes, accumulated into the zero block, at
    `(p, q)`: the sum over the shared axis of the entries of row `p` of the one times those of row `q` of the other. -/
theorem matmul_rowsRows_apply {φ₁ φ₂ : FTy}
    (lhs : FVec Ideal ⟨2, ![m, k]⟩ φ₁) (rhs : FVec Ideal ⟨2, ![n, k]⟩ φ₂) (p : Fin m) (q : Fin n) :
    matmul (rowsRows m k n wf) none lhs rhs (constant (F := Ideal) ⟨2, ![m, n]⟩ .f32 0x00000000#32) (ix2 p q)
      = ∑ d : Fin k, lhs (ix2 p d) * rhs (ix2 q d) := by
  show FloatOps.matmul (rowsRows m k n wf) none lhs rhs (constant (F := Ideal) ⟨2, ![m, n]⟩ .f32 0x00000000#32) (ix2 p q) = _
  rw [Ideal.matmul_constant_zero_apply, ← Equiv.sum_comp (contrEquiv1 (rowsRows m k n wf) k rfl rfl).symm]
  refine Finset.sum_congr rfl fun d _ => ?_
  have hk := contrEquiv1_symm_val (rowsRows m k n wf) k rfl rfl d
  have el : (rowsRows m k n wf).lhsIdx (ix2 p q) ((contrEquiv1 (rowsRows m k n wf) k rfl rfl).symm d) = ix2 p d :=
    funext fun a => Fin.ext (by
      match a with
      | ⟨0, _⟩ => exact rowsRows_lhs0 wf _ _
      | ⟨1, _⟩ => exact ((rowsRows m k n wf).lhsIdx_val_of_single rfl _ _).trans hk)
  have er : (rowsRows m k n wf).rhsIdx (ix2 p q) ((contrEquiv1 (rowsRows m k n wf) k rfl rfl).symm d) = ix2 q d :=
    funext fun a => Fin.ext (by
      match a with
      | ⟨0, _⟩ => exact rowsRows_rhs0 wf _ _
      | ⟨1, _⟩ => exact ((rowsRows m k n wf).rhsIdx_val_of_single rfl _ _).trans hk)
  rw [el, er]

end RowsRows

/-! ## A projected block and its rows divided by their norms -/

/-- An `[a, 512]` block of rows times the `[512, 512]` weight block held with the contracted axis first, at `(r, c)`:
    the projection of row `r` against row `c` of the weights read the other way round. -/
theorem project_apply {a : ℕ} (wf : DotDims.WF ⟨2, ![a, 512]⟩ ⟨2, ![512, 512]⟩ ⟨2, ![a, 512]⟩ [1] [0] [0] [1] [] [])
    (X : FVec Ideal ⟨2, ![a, 512]⟩ .f32) (W : FVec Ideal ⟨2, ![512, 512]⟩ .bf16) (hlt : FTy.bits .bf16 < FTy.bits .f32)
    (hc : (⟨2, ![512, 512]⟩ : Shape).ShapeCasts ⟨2, ![512, 512]⟩) (r : Fin a) (c : Fin 512) :
    matmul (rowsCols a 512 512 wf) none (truncf .bf16 X hlt) (shapeCast ⟨2, ![512, 512]⟩ W hc)
        (constant (F := Ideal) ⟨2, ![a, 512]⟩ .f32 0x00000000#32) (ix2 r c)
      = Cert.RelAttn.proj (Cert.RelAttn.curry2 X) (fun h d => W (ix2 d h)) r c := by
  rw [shapeCast_self]
  exact matmul_rowsCols_apply wf _ _ r c

/-- The normalisation of an `[a, 512]` block `Q` as a body writes it — square, sum along the row, cast to a column,
    square root, maximum with the floor, broadcast back along the row, divide — at `(p, h)`: the entry divided by the
    larger of its row's Euclidean norm and the floor. -/
theorem normalise_apply {a : ℕ} (Q : FVec Ideal ⟨2, ![a, 512]⟩ .f32)
    (hr : (⟨2, ![a, 512]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 512]⟩)
    (p : Fin a) (h : Fin 512) :
    divf Q (broadcastTo ⟨2, ![a, 512]⟩
        (maximumf (sqrt (shapeCast ⟨2, ![a, 1]⟩ (multiReduction (F := Ideal) .add [1] ⟨1, ![a]⟩ (mulf Q Q) 0x00000000#32 hr hφ hacc) hc))
          (broadcast ⟨2, ![a, 1]⟩ (Scalar.ofBits (F := Ideal) .f32 0x2B8CBCCC#32))) hb) (ix2 p h)
      = Cert.RelAttn.l2n (Cert.RelAttn.curry2 Q) p h := by
  show Ideal.div (Q (ix2 p h)) (broadcastTo ⟨2, ![a, 512]⟩ _ hb (ix2 p h)) = _
  rw [broadcastTo_a1_ab_apply]
  show Ideal.div (Q (ix2 p h)) (max (Ideal.sqrt (shapeCast ⟨2, ![a, 1]⟩ _ hc (ix2 p (0 : Fin 1))))
    (Ideal.ofBits .f32 0x2B8CBCCC#32)) = _
  rw [shapeCast_a_a1_apply, rowSum_apply]
  rfl

/-- Projection then normalisation, as both bodies write them on their block of rows, at `(p, h)`. -/
theorem normProj_apply {a : ℕ} (wf : DotDims.WF ⟨2, ![a, 512]⟩ ⟨2, ![512, 512]⟩ ⟨2, ![a, 512]⟩ [1] [0] [0] [1] [] [])
    (X : FVec Ideal ⟨2, ![a, 512]⟩ .f32) (W : FVec Ideal ⟨2, ![512, 512]⟩ .bf16) (hlt : FTy.bits .bf16 < FTy.bits .f32)
    (hcW : (⟨2, ![512, 512]⟩ : Shape).ShapeCasts ⟨2, ![512, 512]⟩)
    (hr : (⟨2, ![a, 512]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 512]⟩)
    (p : Fin a) (h : Fin 512) :
    divf (matmul (rowsCols a 512 512 wf) none (truncf .bf16 X hlt) (shapeCast ⟨2, ![512, 512]⟩ W hcW)
          (constant (F := Ideal) ⟨2, ![a, 512]⟩ .f32 0x00000000#32))
        (broadcastTo ⟨2, ![a, 512]⟩
          (maximumf (sqrt (shapeCast ⟨2, ![a, 1]⟩ (multiReduction (F := Ideal) .add [1] ⟨1, ![a]⟩
              (mulf (matmul (rowsCols a 512 512 wf) none (truncf .bf16 X hlt) (shapeCast ⟨2, ![512, 512]⟩ W hcW)
                  (constant (F := Ideal) ⟨2, ![a, 512]⟩ .f32 0x00000000#32))
                (matmul (rowsCols a 512 512 wf) none (truncf .bf16 X hlt) (shapeCast ⟨2, ![512, 512]⟩ W hcW)
                  (constant (F := Ideal) ⟨2, ![a, 512]⟩ .f32 0x00000000#32)))
              0x00000000#32 hr hφ hacc) hc))
            (broadcast ⟨2, ![a, 1]⟩ (Scalar.ofBits (F := Ideal) .f32 0x2B8CBCCC#32))) hb) (ix2 p h)
      = Cert.RelAttn.l2n (Cert.RelAttn.proj (Cert.RelAttn.curry2 X) (fun h d => W (ix2 d h))) p h := by
  refine (normalise_apply _ hr hφ hacc hc hb p h).trans ?_
  refine congrArg (fun Q => Cert.RelAttn.l2n Q p h) (funext fun r => funext fun c => ?_)
  exact project_apply wf X W hlt hcW r c

/-! ## The three stored values -/

/-- The key-normalisation body stores, at `(p, h)`, the normalised projection of its block of anchors. -/
theorem k0_pay1_apply (v0 : Vec Ideal S1024x512 .f32) (v2 : Vec Ideal S512x512 .bf16) (p : Fin 1024) (h : Fin 512) :
    k0_pay1 v0 v2 (ix2 p h)
      = Cert.RelAttn.l2n (Cert.RelAttn.proj (Cert.RelAttn.curry2 v0) (fun h d => v2 (ix2 d h))) p h := by
  unfold k0_pay1
  exact normProj_apply dot_S1024x512_S512x512_S1024x512_1_0_0_1_n_n_wf v0 v2 bitsLt_bf16_f32
    shapeCasts_S512x512_S512x512 reduces_S1024x512_S1024 (.inl rfl) rfl shapeCasts_S1024_S1024x1
    broadcasts_S1024x1_S1024x512 p h

/-- The main body's first stored value, at `(p, a)`: the similarity of query row `p` of its block and row `a` of the
    normalised keys it loaded. -/
theorem k1_pay1_apply (v0 : Vec Ideal S256x512 .f32) (v2 : Vec Ideal S512x512 .bf16) (v14 : Vec Ideal S4096x512 .bf16)
    (p : Fin 256) (a : Fin 4096) :
    k1_pay1 v0 v2 v14 (ix2 p a)
      = Cert.RelAttn.simK (Cert.RelAttn.curry2 v0) (fun h d => v2 (ix2 d h)) (Cert.RelAttn.curry2 v14) p a := by
  unfold k1_pay1
  refine (matmul_rowsRows_apply dot_S256x512_S4096x512_S256x4096_1_1_0_0_n_n_wf _ _ p a).trans ?_
  refine (Finset.sum_congr rfl fun h _ => ?_ : _ = ∑ h : Fin 512,
    Cert.RelAttn.l2n (Cert.RelAttn.proj (Cert.RelAttn.curry2 v0) (fun h d => v2 (ix2 d h))) p h * v14 (ix2 a h))
  rw [shapeCast_self v14 shapeCasts_S4096x512_S4096x512]
  refine congrArg (· * v14 (ix2 a h)) ?_
  exact normProj_apply dot_S256x512_S512x512_S256x512_1_0_0_1_n_n_wf v0 v2 bitsLt_bf16_f32
    shapeCasts_S512x512_S512x512 reduces_S256x512_S256 (.inl rfl) rfl shapeCasts_S256_S256x1
    broadcasts_S256x1_S256x512 p h

end Cert.KernelIdeal.Pay

end
-- ==== Proof.LibWholeRect.lean ====
/- Two facts about a rectangle that starts at the origin of a shape and has the shape's own extents: it is the
   whole shape. Stores and loads of whole blocks go through such rectangles, spelt with the literal offset `![0, 0]`. -/
import Idealize.ShloMosaic.Lib.Pipeline.Value

namespace Cert.LibWholeRect

open Idealize.ShloMosaic

/-- The literal zero offset of a rank-two rectangle is the constant-zero function. -/
theorem hz2 : (![0, 0] : Fin 2 → Nat) = fun _ => 0 := by funext a; fin_cases a <;> rfl

/-- Every index of a shape lies in the rectangle that starts at the origin and has the shape's own extents. -/
theorem mem_unit_zero {S : Shape} {off : Fin S.rank → Nat} (h : off = fun _ => 0)
    (inb : ∀ a, off a + S.size a ≤ S.size a) (y : S.Idx) : y ∈ (Rect.unit off S.size inb).set := by
  subst h; show y ∈ (Rect.whole S).set; rw [Rect.set_whole]; exact Finset.mem_univ y

end Cert.LibWholeRect
-- ==== Proof.Region0.lean ====
/- The first region, read as values: each grid point projects and normalises one block of 1024 anchor rows, the blocks tile
   the keys' array, so after the region that array holds the normalised keys of all anchors (Proof/Spec.lean `keysArr`).
   A block's element sits in the array at row 1024·t + (its row) and the same column; the weights' one block is the whole
   (transposed) weight array. -/
import proofs.«133617_j57810259804634_2_alg».proof.Proof.Gen.KernelIdeal.Frame
import proofs.«133617_j57810259804634_2_alg».proof.Proof.Spec
import proofs.«133617_j57810259804634_2_alg».proof.Proof.Payloads
import proofs.«133617_j57810259804634_2_alg».proof.Proof.LibWholeRect
import Idealize.ShloMosaic.Lib.Pipeline.Value
import Idealize.ShloMosaic.Lib.ValueIdx

set_option maxRecDepth 16384

noncomputable section

namespace Cert.KernelIdeal.Hand

open Cert.KernelIdeal Cert.KernelIdeal.Gen Cert.RelAttn
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

open Cert.LibWholeRect (hz2)

/-! ## The first region: the normalised keys -/

/-- Block `t` of the anchors is rows `1024 t … 1024 t + 1023` of the anchors' array. -/
theorem anchors_block (c : Dev nD) (t : Fin cfg0.N) (x : S1024x512.Idx) (k : S4096x512.Idx)
    (hk0 : (k 0).val = 1024 * t.val + (x 0).val) (hk1 : (k 1).val = (x 1).val) :
    (iblk0 V c 0 t : Vec Ideal S1024x512 .f32) x = (V c main_arg1 : S4096x512.Idx → Elt Ideal .f32) k := by
  have hi : win0_0.index t 0 = t.val ∧ win0_0.index t 1 = 0 :=
    (by decide +kernel : ∀ t : Fin grid0.N, win0_0.index t 0 = t.val ∧ win0_0.index t 1 = 0) t
  unfold iblk0
  rw [View.read_apply]
  show V c main_arg1 _ = V c main_arg1 _
  congr 1
  funext a
  apply Fin.ext
  match a with
  | ⟨0, _⟩ => show win0_0.index t 0 * 1024 + 1 * (x 0).val = (k 0).val; rw [hi.1, hk0]; omega
  | ⟨1, _⟩ => show win0_0.index t 1 * 512 + 1 * (x 1).val = (k 1).val; rw [hi.2, hk1]; omega

/-- The one block of the transposed key weights is the whole array. -/
theorem wk_block (c : Dev nD) (t : Fin cfg0.N) (x : S512x512.Idx) :
    (iblk0 V c 1 t : Vec Ideal S512x512 .bf16) x = (V c main_v3 : S512x512.Idx → Elt Ideal .bf16) x := by
  have hi : win0_1.index t 0 = 0 ∧ win0_1.index t 1 = 0 :=
    (by decide +kernel : ∀ t : Fin grid0.N, win0_1.index t 0 = 0 ∧ win0_1.index t 1 = 0) t
  unfold iblk0
  rw [View.read_apply]
  show V c main_v3 _ = V c main_v3 _
  congr 1
  funext a
  apply Fin.ext
  match a with
  | ⟨0, _⟩ => show win0_1.index t 0 * 512 + 1 * (x 0).val = (x 0).val; rw [hi.1]; omega
  | ⟨1, _⟩ => show win0_1.index t 1 * 512 + 1 * (x 1).val = (x 1).val; rw [hi.2]; omega

/-- A block of projected, normalised anchor rows is the same rows of the keys' array: the payload at an index is the
    specification of the block's rows, and the block's rows are the array's. -/
theorem keys_block (x0 : Vec Ideal S1024x512 .f32) (x1 : Vec Ideal S512x512 .bf16) (A : S4096x512.Idx → EReal)
    (Wk : S512x512.Idx → EReal) (T : Nat)
    (h0 : ∀ (x : S1024x512.Idx) (k : S4096x512.Idx), (k 0).val = 1024 * T + (x 0).val → (k 1).val = (x 1).val → x0 x = A k)
    (h1 : ∀ d h : Fin 512, x1 (ix2 d h) = Wk (ix2 h d))
    (j : S1024x512.Idx) (i : S4096x512.Idx) (hi0 : (i 0).val = 1024 * T + (j 0).val) (hi1 : (i 1).val = (j 1).val) :
    k0_pay1 x0 x1 j = keysArr A Wk i := by
  obtain ⟨p, h, rfl⟩ : ∃ (p : Fin 1024) (h : Fin 512), j = ix2 p h := ⟨j 0, j 1, eq_ix2 j⟩
  obtain ⟨a, h', rfl⟩ : ∃ (a : Fin 4096) (h' : Fin 512), i = ix2 a h' := ⟨i 0, i 1, eq_ix2 i⟩
  have ha : a.val = 1024 * T + p.val := hi0
  obtain rfl : h' = h := Fin.ext hi1
  have hrow : ∀ d : Fin 512, curry2 x0 p d = curry2 A a d := fun d => h0 _ _ ha rfl
  have hw : (fun h d => x1 (ix2 d h)) = curry2 Wk := funext fun h => funext fun d => h1 d h
  rw [Pay.k0_pay1_apply, keysArr_ix2, hw]
  unfold keys l2n proj
  simp only [hrow]

/-- What point `t` of the first region writes back is block `t` of the keys' array. -/
theorem keys_flushed (c : Dev nD) (Wk : S512x512.Idx → EReal)
    (hW : ∀ d h : Fin 512, (V c main_v3 : S512x512.Idx → Elt Ideal .bf16) (ix2 d h) = Wk (ix2 h d)) (t : Fin cfg0.N) :
    (dat0 V c).flushed 2 t = ((cfg0.win 2).blk t).view.read (Elt Ideal) (keysArr (V c main_arg1) Wk) := by
  have hi : win0_2.index t 0 = t.val ∧ win0_2.index t 1 = 0 :=
    (by decide +kernel : ∀ t : Fin grid0.N, win0_2.index t 0 = t.val ∧ win0_2.index t 1 = 0) t
  show (cfg0.win 2).cut (grid0.coords t) ((dat0 V c).after 2 t) = _
  rw [after0_2]
  unfold out0_2
  rw [View.canon_unit_zero hz2]
  simp only [View.ld_unit_zero (S := S1024x512) hz2, View.ld_unit_zero (S := S512x512) hz2]
  funext j
  show k0_pay1 (iblk0 V c 0 t) (iblk0 V c 1 t) j = keysArr (V c main_arg1) Wk (((cfg0.win 2).blk t).view.emb j)
  refine keys_block (iblk0 V c 0 t) (iblk0 V c 1 t) (V c main_arg1) Wk t.val (fun x k => anchors_block V c t x k)
    (fun d h => (wk_block V c t _).trans (hW d h)) j _ ?_ ?_
  · show win0_2.index t 0 * 1024 + 1 * (j 0).val = _; rw [hi.1]; omega
  · show win0_2.index t 1 * 512 + 1 * (j 1).val = _; rw [hi.2]; omega

/-- The blocks of the first region's output tile the keys' array: row `r` is in block `r / 1024`. -/
theorem keys_cover (i : S4096x512.Idx) : ∃ t : Fin cfg0.N, (cfg0.win 2).flush t = true ∧ i ∈ ((cfg0.win 2).blk t).view.set := by
  have h0 : (i 0).val < 4096 := (i 0).isLt
  have h1 : (i 1).val < 512 := (i 1).isLt
  have hN : cfg0.N = 4 := N_0
  let t : Fin cfg0.N := ⟨(i 0).val / 1024, by rw [hN]; omega⟩
  have hi : win0_2.index t 0 = t.val ∧ win0_2.index t 1 = 0 :=
    (by decide +kernel : ∀ t : Fin grid0.N, win0_2.index t 0 = t.val ∧ win0_2.index t 1 = 0) t
  refine ⟨t, flush0_2 t, ?_⟩
  show i ∈ ((View.whole main_v5).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [hi.1]; show (i 0).val / 1024 * 1024 ≤ (i 0).val ∧ (i 0).val < (i 0).val / 1024 * 1024 + 1024; omega
  | ⟨1, _⟩ =>
    show win0_2.index t 1 * 512 ≤ (i 1).val ∧ (i 1).val < win0_2.index t 1 * 512 + 512
    rw [hi.2]; omega

/-- After the first region the keys' array holds the normalised keys of the anchors. -/
theorem keys_final (c : Dev nD) (Wk : S512x512.Idx → EReal)
    (hW : ∀ d h : Fin 512, (V c main_v3 : S512x512.Idx → Elt Ideal .bf16) (ix2 d h) = Wk (ix2 h d)) :
    (dat0 V c).arrAt 2 cfg0.N = keysArr (V c main_arg1) Wk :=
  (dat0 V c).arrAt_eq_of_cover 2 (keysArr (V c main_arg1) Wk) (fun t _ => keys_flushed V c Wk hW t) keys_cover

end Cert.KernelIdeal.Hand

end
-- ==== Proof.PayOut.lean ====
/- The main body's second value, read at one index: the softmax-weighted sum of the value rows.

   Starting from a block of similarities, the body rounds each entry to the nearest multiple of the bin width, takes each
   row's maximum, subtracts it, exponentiates, divides by the row's sum of exponentials, and multiplies the resulting
   weights into the block of value rows. Read at `(p, h)` this is the specification's mix of the value rows by the
   softmax weights of row `p`'s rounded similarities. The row maximum and the row sum are kept as a column and broadcast
   back along the row, so each is read at `(p, c)` as the row's own maximum or sum; the narrowing of the weights before
   the product changes nothing over the extended reals. -/
import proofs.«133617_j57810259804634_2_alg».proof.Proof.Spec
import proofs.«133617_j57810259804634_2_alg».proof.Proof.Gen.KernelIdeal.Skeleton
import proofs.«133617_j57810259804634_2_alg».proof.Proof.Payloads
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayOut

open Idealize.ShloMosaic Idealize.ShloMosaic.ValueIdx Cert.KernelIdeal Cert.KernelIdeal.Gen Cert.KernelIdeal.Pay Cert.RelAttn

/-! ## The steps on an `[a, 4096]` block, at coordinates -/

/-- Dividing by the bin width, rounding half to even and multiplying back, at any index: the rounding of the entry. -/
theorem round_apply {s : Shape} (Sm : FVec Ideal s .f32) (i : s.Idx) :
    mulf (roundeven (divf Sm (broadcast s (Scalar.ofBits (F := Ideal) .f32 0x3D4CCCCD#32))))
        (broadcast s (Scalar.ofBits (F := Ideal) .f32 0x3D4CCCCD#32)) i
      = quant (Sm i) := rfl

/-- A block less its rows' maxima (each kept as a column and broadcast back along its row), exponentiated, at `(p, c)`:
    the exponential of the entry less its row's maximum. -/
theorem expLessMax_apply {a : ℕ} (Q : FVec Ideal ⟨2, ![a, 4096]⟩ .f32)
    (hr : (⟨2, ![a, 4096]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, 4096]⟩)
    (p : Fin a) (c : Fin 4096) :
    exp (subf Q (broadcastTo ⟨2, ![a, 4096]⟩
        (shapeCast ⟨2, ![a, 1]⟩ (multiReduction (F := Ideal) .maximumf [1] ⟨1, ![a]⟩ Q 0xFF800000#32 hr hφ hacc) hc) hb)) (ix2 p c)
      = Ideal.exp (Q (ix2 p c) - rowMax fun k => Q (ix2 p k)) := by
  show Ideal.exp (Q (ix2 p c) - broadcastTo ⟨2, ![a, 4096]⟩ _ hb (ix2 p c)) = _
  rw [broadcastTo_a1_ab_apply, shapeCast_a_a1_apply, rowMax_apply]
  rfl

/-- A block over its rows' sums (each kept as a column and broadcast back along its row), at `(p, c)`: the entry over
    the sum of its row. -/
theorem overRowSum_apply {a : ℕ} (E : FVec Ideal ⟨2, ![a, 4096]⟩ .f32)
    (hr : (⟨2, ![a, 4096]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 4096]⟩)
    (p : Fin a) (c : Fin 4096) :
    divf E (broadcastTo ⟨2, ![a, 4096]⟩
        (shapeCast ⟨2, ![a, 1]⟩ (multiReduction (F := Ideal) .add [1] ⟨1, ![a]⟩ E 0x00000000#32 hr hφ hacc) hc) hb) (ix2 p c)
      = Ideal.div (E (ix2 p c)) (∑ k : Fin 4096, E (ix2 p k)) := by
  show Ideal.div (E (ix2 p c)) (broadcastTo ⟨2, ![a, 4096]⟩ _ hb (ix2 p c)) = _
  rw [broadcastTo_a1_ab_apply, shapeCast_a_a1_apply, rowSum_apply]

/-- The softmax along the rows of a block as the body writes it, at `(p, c)`: the softmax weight of entry `c` of row `p`. -/
theorem softmax_apply {a : ℕ} (Q : FVec Ideal ⟨2, ![a, 4096]⟩ .f32)
    (hr : (⟨2, ![a, 4096]⟩ : Shape).Reduces [1] ⟨1, ![a]⟩) (hφ : FKind.Formats .f32)
    (haccM : (0xFF800000#32 : BitVec 32) = FKind.maximumf.neutral .f32 hφ)
    (haccS : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 4096]⟩)
    (p : Fin a) (c : Fin 4096) :
    divf (exp (subf Q (broadcastTo ⟨2, ![a, 4096]⟩
          (shapeCast ⟨2, ![a, 1]⟩ (multiReduction (F := Ideal) .maximumf [1] ⟨1, ![a]⟩ Q 0xFF800000#32 hr hφ haccM) hc) hb)))
        (broadcastTo ⟨2, ![a, 4096]⟩
          (shapeCast ⟨2, ![a, 1]⟩ (multiReduction (F := Ideal) .add [1] ⟨1, ![a]⟩
            (exp (subf Q (broadcastTo ⟨2, ![a, 4096]⟩
              (shapeCast ⟨2, ![a, 1]⟩ (multiReduction (F := Ideal) .maximumf [1] ⟨1, ![a]⟩ Q 0xFF800000#32 hr hφ haccM) hc) hb)))
            0x00000000#32 hr hφ haccS) hc) hb) (ix2 p c)
      = softW (fun k => Q (ix2 p k)) c := by
  refine (overRowSum_apply _ hr hφ haccS hc hb p c).trans ?_
  unfold softW
  exact congrArg₂ Ideal.div (expLessMax_apply Q hr hφ haccM hc hb p c)
    (Finset.sum_congr rfl fun k _ => expLessMax_apply Q hr hφ haccM hc hb p k)

/-! ## The stored value -/

/-- The main body's second value at `(p, h)`, given what its similarities block reads at each `(p, a)`: the value rows
    mixed by the softmax weights of row `p`'s rounded similarities. -/
theorem k1_pay2_apply_of (v0 : Vec Ideal S256x512 .f32) (v2 : Vec Ideal S512x512 .bf16) (v14 v33 : Vec Ideal S4096x512 .bf16)
    (S : Fin 256 → Fin 4096 → EReal)
    (hsim : ∀ (p : Fin 256) (a : Fin 4096), k1_pay1 v0 v2 v14 (ix2 p a) = S p a) (p : Fin 256) (h : Fin 512) :
    k1_pay2 v0 v2 v14 v33 (ix2 p h) = mix (softW fun a => quant (S p a)) (curry2 v33) h := by
  unfold k1_pay2
  refine (matmul_rowsCols_apply dot_S256x4096_S4096x512_S256x512_1_0_0_1_n_n_wf _ _ p h).trans ?_
  unfold mix
  refine Finset.sum_congr rfl fun d _ => ?_
  rw [shapeCast_self]
  refine congrArg (· * v33 (ix2 d h)) ?_
  refine (softmax_apply _ reduces_S256x4096_S256 (.inl rfl) rfl rfl shapeCasts_S256_S256x1
    broadcasts_S256x1_S256x4096 p d).trans ?_
  exact congrArg (fun f => softW f d) (funext fun a => (round_apply (k1_pay1 v0 v2 v14) (ix2 p a)).trans
    (congrArg quant (hsim p a)))

end Cert.KernelIdeal.PayOut

end
-- ==== Proof.Region1.lean ====
/- The second region, read as values: each grid point takes one block of 256 query rows, the whole (transposed) query weights,
   the whole keys' array and the whole values' array, and leaves the block's similarity rows and output rows; the blocks tile
   both result arrays, so after the region they hold the similarities and the outputs of all queries against the keys the
   region found (Proof/Spec.lean `simArr`, `outArr`). A block's element sits in its array at row 256·t + (its row) and the
   same column. -/
import proofs.«133617_j57810259804634_2_alg».proof.Proof.Gen.KernelIdeal.Frame
import proofs.«133617_j57810259804634_2_alg».proof.Proof.Spec
import proofs.«133617_j57810259804634_2_alg».proof.Proof.Payloads
import proofs.«133617_j57810259804634_2_alg».proof.Proof.PayOut
import proofs.«133617_j57810259804634_2_alg».proof.Proof.LibWholeRect
import Idealize.ShloMosaic.Lib.Pipeline.Value
import Idealize.ShloMosaic.Lib.ValueIdx

set_option maxRecDepth 16384

noncomputable section

namespace Cert.KernelIdeal.Hand

open Cert.KernelIdeal Cert.KernelIdeal.Gen Cert.RelAttn
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

open Cert.LibWholeRect (hz2)

/-! ## The second region: similarities and output -/

/-- Block `t` of the queries is rows `256 t … 256 t + 255` of the queries' array. -/
theorem queries_block (c : Dev nD) (t : Fin cfg1.N) (x : S256x512.Idx) (k : S16384x512.Idx)
    (hk0 : (k 0).val = 256 * t.val + (x 0).val) (hk1 : (k 1).val = (x 1).val) :
    (iblk1 V c 0 t : Vec Ideal S256x512 .f32) x = (V c main_arg0 : S16384x512.Idx → Elt Ideal .f32) k := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_arg0 _ = V c main_arg0 _
  congr 1
  funext a
  apply Fin.ext
  match a with
  | ⟨0, _⟩ => show win1_0.index t 0 * 256 + 1 * (x 0).val = (k 0).val; rw [hi.1, hk0]; omega
  | ⟨1, _⟩ => show win1_0.index t 1 * 512 + 1 * (x 1).val = (k 1).val; rw [hi.2, hk1]; omega

/-- The one block of the transposed query weights is the whole array. -/
theorem wq_block (c : Dev nD) (t : Fin cfg1.N) (x : S512x512.Idx) :
    (iblk1 V c 1 t : Vec Ideal S512x512 .bf16) x = (V c main_v1 : S512x512.Idx → Elt Ideal .bf16) x := by
  have hi : win1_1.index t 0 = 0 ∧ win1_1.index t 1 = 0 :=
    (by decide +kernel : ∀ t : Fin grid1.N, win1_1.index t 0 = 0 ∧ win1_1.index t 1 = 0) t
  unfold iblk1
  rw [View.read_apply]
  show V c main_v1 _ = V c main_v1 _
  congr 1
  funext a
  apply Fin.ext
  match a with
  | ⟨0, _⟩ => show win1_1.index t 0 * 512 + 1 * (x 0).val = (x 0).val; rw [hi.1]; omega
  | ⟨1, _⟩ => show win1_1.index t 1 * 512 + 1 * (x 1).val = (x 1).val; rw [hi.2]; omega

/-- The one block of the keys is the whole array. -/
theorem kn_block (c : Dev nD) (t : Fin cfg1.N) (x : S4096x512.Idx) :
    (iblk1 V c 2 t : Vec Ideal S4096x512 .bf16) x = (V c main_v5 : S4096x512.Idx → Elt Ideal .bf16) x := by
  have hi : win1_2.index t 0 = 0 ∧ win1_2.index t 1 = 0 :=
    (by decide +kernel : ∀ t : Fin grid1.N, win1_2.index t 0 = 0 ∧ win1_2.index t 1 = 0) t
  unfold iblk1
  rw [View.read_apply]
  show V c main_v5 _ = V c main_v5 _
  congr 1
  funext a
  apply Fin.ext
  match a with
  | ⟨0, _⟩ => show win1_2.index t 0 * 4096 + 1 * (x 0).val = (x 0).val; rw [hi.1]; omega
  | ⟨1, _⟩ => show win1_2.index t 1 * 512 + 1 * (x 1).val = (x 1).val; rw [hi.2]; omega

/-- The one block of the values is the whole array. -/
theorem vals_block (c : Dev nD) (t : Fin cfg1.N) (x : S4096x512.Idx) :
    (iblk1 V c 3 t : Vec Ideal S4096x512 .bf16) x = (V c main_v4 : S4096x512.Idx → Elt Ideal .bf16) x := by
  have hi : win1_3.index t 0 = 0 ∧ win1_3.index t 1 = 0 :=
    (by decide +kernel : ∀ t : Fin grid1.N, win1_3.index t 0 = 0 ∧ win1_3.index t 1 = 0) t
  unfold iblk1
  rw [View.read_apply]
  show V c main_v4 _ = V c main_v4 _
  congr 1
  funext a
  apply Fin.ext
  match a with
  | ⟨0, _⟩ => show win1_3.index t 0 * 4096 + 1 * (x 0).val = (x 0).val; rw [hi.1]; omega
  | ⟨1, _⟩ => show win1_3.index t 1 * 512 + 1 * (x 1).val = (x 1).val; rw [hi.2]; omega

/-- A block of similarity rows is the same rows of the similarities' array. -/
theorem sims_block (x0 : Vec Ideal S256x512 .f32) (x1 : Vec Ideal S512x512 .bf16) (x2 : Vec Ideal S4096x512 .bf16)
    (X : S16384x512.Idx → EReal) (Wq : S512x512.Idx → EReal) (Kn : S4096x512.Idx → EReal) (T : Nat)
    (h0 : ∀ (x : S256x512.Idx) (k : S16384x512.Idx), (k 0).val = 256 * T + (x 0).val → (k 1).val = (x 1).val → x0 x = X k)
    (h1 : ∀ d h : Fin 512, x1 (ix2 d h) = Wq (ix2 h d)) (h2 : ∀ i, x2 i = Kn i)
    (j : S256x4096.Idx) (i : S16384x4096.Idx) (hi0 : (i 0).val = 256 * T + (j 0).val) (hi1 : (i 1).val = (j 1).val) :
    k1_pay1 x0 x1 x2 j = simArr X Wq Kn i := by
  obtain ⟨p, a, rfl⟩ : ∃ (p : Fin 256) (a : Fin 4096), j = ix2 p a := ⟨j 0, j 1, eq_ix2 j⟩
  obtain ⟨b, a', rfl⟩ : ∃ (b : Fin 16384) (a' : Fin 4096), i = ix2 b a' := ⟨i 0, i 1, eq_ix2 i⟩
  have hb : b.val = 256 * T + p.val := hi0
  obtain rfl : a' = a := Fin.ext hi1
  have hrow : ∀ d : Fin 512, curry2 x0 p d = curry2 X b d := fun d => h0 _ _ hb rfl
  have hw : (fun h d => x1 (ix2 d h)) = curry2 Wq := funext fun h => funext fun d => h1 d h
  have hk : curry2 x2 = curry2 Kn := funext fun a => funext fun h => h2 _
  rw [Pay.k1_pay1_apply, simArr_ix2, hw, hk]
  unfold simK sim l2n proj
  simp only [hrow]

/-- A block of output rows is the same rows of the output array. -/
theorem outs_block (x0 : Vec Ideal S256x512 .f32) (x1 : Vec Ideal S512x512 .bf16) (x2 x3 : Vec Ideal S4096x512 .bf16)
    (X : S16384x512.Idx → EReal) (Wq : S512x512.Idx → EReal) (Kn Vv : S4096x512.Idx → EReal) (T : Nat)
    (h0 : ∀ (x : S256x512.Idx) (k : S16384x512.Idx), (k 0).val = 256 * T + (x 0).val → (k 1).val = (x 1).val → x0 x = X k)
    (h1 : ∀ d h : Fin 512, x1 (ix2 d h) = Wq (ix2 h d)) (h2 : ∀ i, x2 i = Kn i) (h3 : ∀ i, x3 i = Vv i)
    (j : S256x512.Idx) (i : S16384x512.Idx) (hi0 : (i 0).val = 256 * T + (j 0).val) (hi1 : (i 1).val = (j 1).val) :
    k1_pay2 x0 x1 x2 x3 j = outArr X Wq Kn Vv i := by
  obtain ⟨p, h, rfl⟩ : ∃ (p : Fin 256) (h : Fin 512), j = ix2 p h := ⟨j 0, j 1, eq_ix2 j⟩
  obtain ⟨b, h', rfl⟩ : ∃ (b : Fin 16384) (h' : Fin 512), i = ix2 b h' := ⟨i 0, i 1, eq_ix2 i⟩
  have hb : b.val = 256 * T + p.val := hi0
  obtain rfl : h' = h := Fin.ext hi1
  have hrow : ∀ d : Fin 512, curry2 x0 p d = curry2 X b d := fun d => h0 _ _ hb rfl
  have hw : (fun h d => x1 (ix2 d h)) = curry2 Wq := funext fun h => funext fun d => h1 d h
  have hk : curry2 x2 = curry2 Kn := funext fun a => funext fun h => h2 _
  have hv : curry2 x3 = curry2 Vv := funext fun a => funext fun h => h3 _
  rw [PayOut.k1_pay2_apply_of x0 x1 x2 x3 _ (fun p a => Pay.k1_pay1_apply x0 x1 x2 p a) p _, outArr_ix2, hw, hk, hv]
  unfold outK simK sim l2n proj
  simp only [hrow]

/-- What point `t` of the second region writes back to the similarities is block `t` of the similarities' array. -/
theorem sims_flushed (c : Dev nD) (Wq : S512x512.Idx → EReal)
    (hW : ∀ d h : Fin 512, (V c main_v1 : S512x512.Idx → Elt Ideal .bf16) (ix2 d h) = Wq (ix2 h d)) (t : Fin cfg1.N) :
    (dat1 V c).flushed 5 t = ((cfg1.win 5).blk t).view.read (Elt Ideal) (simArr (V c main_arg0) Wq (V c main_v5)) := by
  have hi : win1_5.index t 0 = t.val ∧ win1_5.index t 1 = 0 :=
    (by decide +kernel : ∀ t : Fin grid1.N, win1_5.index t 0 = t.val ∧ win1_5.index t 1 = 0) t
  show (cfg1.win 5).cut (grid1.coords t) ((dat1 V c).after 5 t) = _
  rw [after1_5]
  unfold out1_5
  rw [View.canon_unit_zero hz2]
  simp only [View.ld_unit_zero (S := S256x512) hz2, View.ld_unit_zero (S := S512x512) hz2, View.ld_unit_zero (S := S4096x512) hz2]
  funext j
  show k1_pay1 (iblk1 V c 0 t) (iblk1 V c 1 t) (iblk1 V c 2 t) j
    = simArr (V c main_arg0) Wq (V c main_v5) (((cfg1.win 5).blk t).view.emb j)
  refine sims_block (iblk1 V c 0 t) (iblk1 V c 1 t) (iblk1 V c 2 t) (V c main_arg0) Wq (V c main_v5) t.val
    (fun x k => queries_block V c t x k) (fun d h => (wq_block V c t _).trans (hW d h)) (fun i => kn_block V c t i) j _ ?_ ?_
  · show win1_5.index t 0 * 256 + 1 * (j 0).val = _; rw [hi.1]; omega
  · show win1_5.index t 1 * 4096 + 1 * (j 1).val = _; rw [hi.2]; omega

/-- What point `t` of the second region writes back to the output is block `t` of the output array. -/
theorem outs_flushed (c : Dev nD) (Wq : S512x512.Idx → EReal) (Vv : S4096x512.Idx → EReal)
    (hW : ∀ d h : Fin 512, (V c main_v1 : S512x512.Idx → Elt Ideal .bf16) (ix2 d h) = Wq (ix2 h d))
    (hV : ∀ i, (V c main_v4 : S4096x512.Idx → Elt Ideal .bf16) i = Vv i) (t : Fin cfg1.N) :
    (dat1 V c).flushed 4 t = ((cfg1.win 4).blk t).view.read (Elt Ideal) (outArr (V c main_arg0) Wq (V c main_v5) Vv) := by
  have hi : win1_4.index t 0 = t.val ∧ win1_4.index t 1 = 0 :=
    (by decide +kernel : ∀ t : Fin grid1.N, win1_4.index t 0 = t.val ∧ win1_4.index t 1 = 0) t
  show (cfg1.win 4).cut (grid1.coords t) ((dat1 V c).after 4 t) = _
  rw [after1_4]
  unfold out1_4
  rw [View.canon_unit_zero hz2]
  simp only [View.ld_unit_zero (S := S256x512) hz2, View.ld_unit_zero (S := S512x512) hz2, View.ld_unit_zero (S := S4096x512) hz2]
  funext j
  show k1_pay2 (iblk1 V c 0 t) (iblk1 V c 1 t) (iblk1 V c 2 t) (iblk1 V c 3 t) j
    = outArr (V c main_arg0) Wq (V c main_v5) Vv (((cfg1.win 4).blk t).view.emb j)
  refine outs_block (iblk1 V c 0 t) (iblk1 V c 1 t) (iblk1 V c 2 t) (iblk1 V c 3 t) (V c main_arg0) Wq (V c main_v5) Vv t.val
    (fun x k => queries_block V c t x k) (fun d h => (wq_block V c t _).trans (hW d h)) (fun i => kn_block V c t i)
    (fun i => (vals_block V c t i).trans (hV i)) j _ ?_ ?_
  · show win1_4.index t 0 * 256 + 1 * (j 0).val = _; rw [hi.1]; omega
  · show win1_4.index t 1 * 512 + 1 * (j 1).val = _; rw [hi.2]; omega

/-- The blocks of the similarities tile their array: row `r` is in block `r / 256`. -/
theorem sims_cover (i : S16384x4096.Idx) : ∃ t : Fin cfg1.N, (cfg1.win 5).flush t = true ∧ i ∈ ((cfg1.win 5).blk t).view.set := by
  have h0 : (i 0).val < 16384 := (i 0).isLt
  have h1 : (i 1).val < 4096 := (i 1).isLt
  have hN : cfg1.N = 64 := N_1
  let t : Fin cfg1.N := ⟨(i 0).val / 256, by rw [hN]; omega⟩
  have hi : win1_5.index t 0 = t.val ∧ win1_5.index t 1 = 0 :=
    (by decide +kernel : ∀ t : Fin grid1.N, win1_5.index t 0 = t.val ∧ win1_5.index t 1 = 0) t
  refine ⟨t, flush1_5 t, ?_⟩
  show i ∈ ((View.whole main_v6_1).slice (win1_5.rect t)).set
  rw [View.set_slice_whole, Rect.mem_set_unit]
  intro a
  match a with
  | ⟨0, _⟩ =>
    show win1_5.index t 0 * 256 ≤ (i 0).val ∧ (i 0).val < win1_5.index t 0 * 256 + 256
    rw [hi.1]; show (i 0).val / 256 * 256 ≤ (i 0).val ∧ (i 0).val < (i 0).val / 256 * 256 + 256; omega
  | ⟨1, _⟩ =>
    show win1_5.index t 1 * 4096 ≤ (i 1).val ∧ (i 1).val < win1_5.index t 1 * 4096 + 4096
    rw [hi.2]; omega

/-- The blocks of the output tile its array: row `r` is in block `r / 256`. -/
theorem outs_cover (i : S16384x512.Idx) : ∃ t : Fin cfg1.N, (cfg1.win 4).flush t = true ∧ i ∈ ((cfg1.win 4).blk t).view.set := by
  have h0 : (i 0).val < 16384 := (i 0).isLt
  have h1 : (i 1).val < 512 := (i 1).isLt
  have hN : cfg1.N = 64 := N_1
  let t : Fin cfg1.N := ⟨(i 0).val / 256, by rw [hN]; omega⟩
  have hi : win1_4.index t 0 = t.val ∧ win1_4.index t 1 = 0 :=
    (by decide +kernel : ∀ t : Fin grid1.N, win1_4.index t 0 = t.val ∧ win1_4.index t 1 = 0) t
  refine ⟨t, flush1_4 t, ?_⟩
  show i ∈ ((View.whole main_v6_0).slice (win1_4.rect t)).set
  rw [View.set_slice_whole, Rect.mem_set_unit]
  intro a
  match a with
  | ⟨0, _⟩ =>
    show win1_4.index t 0 * 256 ≤ (i 0).val ∧ (i 0).val < win1_4.index t 0 * 256 + 256
    rw [hi.1]; show (i 0).val / 256 * 256 ≤ (i 0).val ∧ (i 0).val < (i 0).val / 256 * 256 + 256; omega
  | ⟨1, _⟩ =>
    show win1_4.index t 1 * 512 ≤ (i 1).val ∧ (i 1).val < win1_4.index t 1 * 512 + 512
    rw [hi.2]; omega

/-- After the second region the similarities' array holds the similarities of the queries against the entry keys. -/
theorem sims_final (c : Dev nD) (Wq : S512x512.Idx → EReal)
    (hW : ∀ d h : Fin 512, (V c main_v1 : S512x512.Idx → Elt Ideal .bf16) (ix2 d h) = Wq (ix2 h d)) :
    (dat1 V c).arrAt 5 cfg1.N = simArr (V c main_arg0) Wq (V c main_v5) :=
  (dat1 V c).arrAt_eq_of_cover 5 (simArr (V c main_arg0) Wq (V c main_v5)) (fun t _ => sims_flushed V c Wq hW t) sims_cover

/-- After the second region the output array holds the output rows. -/
theorem outs_final (c : Dev nD) (Wq : S512x512.Idx → EReal) (Vv : S4096x512.Idx → EReal)
    (hW : ∀ d h : Fin 512, (V c main_v1 : S512x512.Idx → Elt Ideal .bf16) (ix2 d h) = Wq (ix2 h d))
    (hV : ∀ i, (V c main_v4 : S4096x512.Idx → Elt Ideal .bf16) i = Vv i) :
    (dat1 V c).arrAt 4 cfg1.N = outArr (V c main_arg0) Wq (V c main_v5) Vv :=
  (dat1 V c).arrAt_eq_of_cover 4 (outArr (V c main_arg0) Wq (V c main_v5) Vv) (fun t _ => outs_flushed V c Wq Vv hW hV t) outs_cover

end Cert.KernelIdeal.Hand

end
-- ==== Proof.Boundaries.lean ====
import proofs.«133617_j57810259804634_2_alg».proof.Proof.Gen.KernelIdeal.Frame
import Idealize.ShloMosaic.Lib.StableHlo.Run
import Idealize.ShloMosaic.Lib.Pipeline.Value
import Idealize.ShloMosaic.Lib.ValueIdx

/-!
# What the buffers hold when each of the two regions is entered

Before the first region the program transposes the two square weight matrices and narrows
them (and the value matrix) to the shorter float format; over the extended reals the
narrowing is the identity, so the narrowed transpose of `A` holds `A h d` at `(d, h)`
and the narrowed value matrix is the value matrix. No operation of that stretch writes an
argument array, so each argument still holds what it held at launch. The first region
writes one array (the normalised keys); every other buffer passes through it unchanged.
-/

set_option maxRecDepth 16384

noncomputable section

namespace Cert.KernelIdeal.Hand2

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- None of the five operations before the first region has the reference in its write set:
    the goal is a conjunction of five inequalities of references, each decided. -/
local macro "not_written" : tactic =>
  `(tactic| (simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
             repeat' apply And.intro
             all_goals exact StableHlo.devRef_ne_of_ne (by decide)))

/-! ## Entry of the first region -/

/-- The anchor matrix is as launched. -/
theorem V1_main_arg1 : V1 m ρ c main_arg1 = m ((c : Thread nD τ).loc main_arg1) :=
  calc V1 m ρ c main_arg1
    _ = W0 m ρ c (Proc.devRef .tc main_arg1) :=
        StableHlo.after_of_forall_not_mem (b := Proc.devRef .tc main_arg1) _ _
          (List.forall_iff_forall_mem.mp (by not_written))
    _ = m ((c : Thread nD τ).loc main_arg1) := rfl

/-- The key weights as the first region reads them: the narrowed transpose of the fourth argument. -/
theorem V1_main_v3 :
    (V1 m ρ c main_v3 : Vec Ideal S512x512 .bf16)
      = truncf (F := Ideal) .bf16 (transpose S512x512 [1, 0]
          (m ((c : Thread nD τ).loc main_arg3) : Vec Ideal S512x512 .f32)
          transposes_S512x512_S512x512_1_0) bitsLt_bf16_f32 := by
  dsimp only [V1, W1, hostOps0]
  after_results

/-- A transpose of a square matrix read at `(d, h)` is the matrix at `(h, d)`. -/
theorem transpose_sq_apply (x : Vec Ideal S512x512 .f32) (d h : Fin 512) :
    transpose S512x512 [1, 0] x transposes_S512x512_S512x512_1_0 (ix2 d h) = x (ix2 h d) :=
  transpose_apply [1, 0] x transposes_S512x512_S512x512_1_0 (ix2 d h) (ix2 h d) (fun b => match b with
    | ⟨0, _⟩ => rfl
    | ⟨1, _⟩ => rfl)

/-- Entry `(d, h)` of the key weights the first region reads is entry `(h, d)` of the fourth argument. -/
theorem V1_main_v3_apply (d h : Fin 512) :
    (V1 m ρ c main_v3 : Vec Ideal S512x512 .bf16) (ix2 d h)
      = (m ((c : Thread nD τ).loc main_arg3) : Vec Ideal S512x512 .f32) (ix2 h d) := by
  rw [V1_main_v3, truncf_apply, transpose_sq_apply]

/-! ## Entry of the second region

The first region's arrays are the anchors, the key weights and the array it writes; the query
matrix, the query weights and the narrowed values are none of them, so they hold what they held
before it. -/

/-- The query matrix is as launched. -/
theorem V2_main_arg0 : V2 m ρ c main_arg0 = m ((c : Thread nD τ).loc main_arg0) :=
  calc V2 m ρ c main_arg0
    _ = W1 m ρ c (Proc.devRef .tc main_arg0) := W2_of_ne m ρ c main_arg0 (by decide)
    _ = W0 m ρ c (Proc.devRef .tc main_arg0) :=
        StableHlo.after_of_forall_not_mem (b := Proc.devRef .tc main_arg0) _ _
          (List.forall_iff_forall_mem.mp (by not_written))
    _ = m ((c : Thread nD τ).loc main_arg0) := rfl

/-- The query weights before the first region: the narrowed transpose of the third argument. -/
theorem V1_main_v1 :
    (V1 m ρ c main_v1 : Vec Ideal S512x512 .bf16)
      = truncf (F := Ideal) .bf16 (transpose S512x512 [1, 0]
          (m ((c : Thread nD τ).loc main_arg2) : Vec Ideal S512x512 .f32)
          transposes_S512x512_S512x512_1_0) bitsLt_bf16_f32 := by
  dsimp only [V1, W1, hostOps0]
  after_results

/-- Entry `(d, h)` of the query weights the second region reads is entry `(h, d)` of the third argument. -/
theorem V2_main_v1_apply (d h : Fin 512) :
    (V2 m ρ c main_v1 : Vec Ideal S512x512 .bf16) (ix2 d h)
      = (m ((c : Thread nD τ).loc main_arg2) : Vec Ideal S512x512 .f32) (ix2 h d) := by
  have e : V2 m ρ c main_v1 = V1 m ρ c main_v1 := W2_of_ne m ρ c main_v1 (by decide)
  rw [e, V1_main_v1, truncf_apply, transpose_sq_apply]

/-- The narrowed values before the first region: the fifth argument, narrowed. -/
theorem V1_main_v4 :
    (V1 m ρ c main_v4 : Vec Ideal S4096x512 .bf16)
      = truncf (F := Ideal) .bf16 (m ((c : Thread nD τ).loc main_arg4) : Vec Ideal S4096x512 .f32)
          bitsLt_bf16_f32 := by
  dsimp only [V1, W1, hostOps0]
  after_results

/-- The values the second region reads are the fifth argument, entry by entry. -/
theorem V2_main_v4_apply (i : S4096x512.Idx) :
    (V2 m ρ c main_v4 : Vec Ideal S4096x512 .bf16) i
      = (m ((c : Thread nD τ).loc main_arg4) : Vec Ideal S4096x512 .f32) i := by
  have e : V2 m ρ c main_v4 = V1 m ρ c main_v4 := W2_of_ne m ρ c main_v4 (by decide)
  rw [e, V1_main_v4, truncf_apply]

/-- The normalised keys the second region reads are what the first region's write-backs leave. -/
theorem V2_main_v5 : V2 m ρ c main_v5 = (dat0 (V1 m ρ) c).arrAt 2 cfg0.N :=
  W2_arr m ρ c 2

end Cert.KernelIdeal.Hand2

end
-- ==== Proof.KernelValue.lean ====
/- The idealized kernel's run with its two result arrays as functions of the argument arrays.

   The first region leaves the normalised keys of the anchors in its output array; the second region finds that array,
   the queries and the (transposed, format-changed) query weights and values as the host operations and the first region
   left them, and leaves the similarities and the output rows. Reading the boundary contents back to the launch memory
   (a transpose read at `(d, h)` is the weight at `(h, d)`; a change of float format is the identity) gives both result
   arrays as the specification's functions of the five arguments. -/
import proofs.«133617_j57810259804634_2_alg».proof.Proof.KernelRun
import proofs.«133617_j57810259804634_2_alg».proof.Proof.Region0
import proofs.«133617_j57810259804634_2_alg».proof.Proof.Region1
import proofs.«133617_j57810259804634_2_alg».proof.Proof.Boundaries

set_option maxRecDepth 16384

noncomputable section

namespace Cert.KernelIdeal.Hand

open Cert.KernelIdeal Cert.KernelIdeal.Gen Cert.RelAttn
open Idealize.ShloMosaic Idealize.ShloMosaic.TcCoe Idealize.SL.Sem ValueIdx

variable (m : (ℓ : Loc nD τ sig) → Buf (Elt Ideal) ℓ) (ρ : Dev nD → PrngReg)

/-- When the second region is entered the keys' array holds the normalised keys of the anchors. -/
theorem keys_value (c : Dev nD) :
    (V2 m ρ c main_v5 : S4096x512.Idx → Elt Ideal .bf16)
      = keysArr (m ((c.tc : Thread nD τ).loc main_arg1)) (m ((c.tc : Thread nD τ).loc main_arg3)) := by
  rw [Hand2.V2_main_v5, keys_final (V1 m ρ) c (m ((c.tc : Thread nD τ).loc main_arg3)) (Hand2.V1_main_v3_apply m ρ c),
    Hand2.V1_main_arg1]

/-- The similarities' array after the run. -/
theorem sims_value (c : Dev nD) :
    W3 m ρ c (Proc.devRef .tc main_v6_1)
      = simArr (m ((c.tc : Thread nD τ).loc main_arg0)) (m ((c.tc : Thread nD τ).loc main_arg2))
          (keysArr (m ((c.tc : Thread nD τ).loc main_arg1)) (m ((c.tc : Thread nD τ).loc main_arg3))) := by
  rw [out1_eq, sims_final (V2 m ρ) c (m ((c.tc : Thread nD τ).loc main_arg2)) (Hand2.V2_main_v1_apply m ρ c),
    Hand2.V2_main_arg0, keys_value]

/-- The output array after the run. -/
theorem outs_value (c : Dev nD) :
    W3 m ρ c (Proc.devRef .tc main_v6_0)
      = outArr (m ((c.tc : Thread nD τ).loc main_arg0)) (m ((c.tc : Thread nD τ).loc main_arg2))
          (keysArr (m ((c.tc : Thread nD τ).loc main_arg1)) (m ((c.tc : Thread nD τ).loc main_arg3)))
          (m ((c.tc : Thread nD τ).loc main_arg4)) := by
  rw [out0_eq, outs_final (V2 m ρ) c (m ((c.tc : Thread nD τ).loc main_arg2)) (m ((c.tc : Thread nD τ).loc main_arg4))
      (Hand2.V2_main_v1_apply m ρ c) (Hand2.V2_main_v4_apply m ρ c),
    Hand2.V2_main_arg0, keys_value]

/-- Every weakly fair execution of the idealized kernel ends with the output and the similarities at the specification's
    functions of the argument arrays, and the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6_0)
        = outArr (m ((c.tc : Thread nD τ).loc main_arg0)) (m ((c.tc : Thread nD τ).loc main_arg2))
            (keysArr (m ((c.tc : Thread nD τ).loc main_arg1)) (m ((c.tc : Thread nD τ).loc main_arg3)))
            (m ((c.tc : Thread nD τ).loc main_arg4))
      ∧ r.2.mem ((c.tc : Thread nD τ).loc main_v6_1)
        = simArr (m ((c.tc : Thread nD τ).loc main_arg0)) (m ((c.tc : Thread nD τ).loc main_arg2))
            (keysArr (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (outs_value m ρ c), (h c).2.1.trans (sims_value m ρ c), (h c).2.2⟩)
    (run_named m ρ)

end Cert.KernelIdeal.Hand

end
-- ==== Proof.lean ====
/- The certificate's five claims.

   Both idealized programs compute, from the queries `x`, the anchors, the two weight matrices and the values, the
   similarities of L2-normalised projected queries against L2-normalised projected anchors and the softmax-weighted
   combination of the values over the rounded similarities (Proof/Spec.lean). The kernel does it in two gridded regions
   (normalised keys block by block; then, per block of queries, similarities and output), the reference as one chain of
   whole-array operations. At the extended reals a change of float format is the identity, a matrix product is the plain
   sum of products on both sides, and a row maximum or row sum is the same fold or sum; the one place where the two
   differ as written is the reference's straight-through rounding `s + (round s - s)`, which is `round s` because a
   similarity of finite inputs is finite — the only use of the precondition. The three frame claims are the generated
   frames and the reference's generated run; the idealization rewrote nothing, so `preserves` is `True`. -/
import proofs.«133617_j57810259804634_2_alg».proof.Defs
import proofs.«133617_j57810259804634_2_alg».proof.Proof.Gen.Kernel
import proofs.«133617_j57810259804634_2_alg».proof.Proof.Gen.Kernel.Skeleton
import proofs.«133617_j57810259804634_2_alg».proof.Proof.Gen.Kernel.Launch
import proofs.«133617_j57810259804634_2_alg».proof.Proof.Gen.Kernel.Points
import proofs.«133617_j57810259804634_2_alg».proof.Proof.Gen.Kernel.Frame
import proofs.«133617_j57810259804634_2_alg».proof.Proof.Gen.KernelIdeal
import proofs.«133617_j57810259804634_2_alg».proof.Proof.Gen.KernelIdeal.Skeleton
import proofs.«133617_j57810259804634_2_alg».proof.Proof.Gen.KernelIdeal.Launch
import proofs.«133617_j57810259804634_2_alg».proof.Proof.Gen.KernelIdeal.Points
import proofs.«133617_j57810259804634_2_alg».proof.Proof.Gen.KernelIdeal.Frame
import proofs.«133617_j57810259804634_2_alg».proof.Proof.Gen.ReferenceIdeal
import proofs.«133617_j57810259804634_2_alg».proof.Proof.Gen.Pre_finite_inputs
import proofs.«133617_j57810259804634_2_alg».proof.Proof.Gen.ReferenceIdeal.Run
import proofs.«133617_j57810259804634_2_alg».proof.Proof.Gen.ReferenceIdeal.Read
import proofs.«133617_j57810259804634_2_alg».proof.Proof.Spec
import proofs.«133617_j57810259804634_2_alg».proof.Proof.PreFinite
import proofs.«133617_j57810259804634_2_alg».proof.Proof.RefIsSpec
import proofs.«133617_j57810259804634_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the output at `outArr` and the similarities at `simArr` of the (agreeing) argument arrays. -/
theorem algebraic : Cert.algebraic_KernelIdeal_ReferenceIdeal := by
  intro m ρ m' ρ' hpre hagree
  refine ⟨_, _, Cert.KernelIdeal.Hand.run m ρ, ?_⟩
  refine (θ_run Cert.ReferenceIdeal.defs _ _).mono (fun r h c => ?_) (Cert.ReferenceIdeal.Value.run (F := Ideal) m' ρ')
  obtain ⟨f0, f1, f2, f3, -⟩ := Cert.PreFinite.finite_of_pre _ _ _ _ _ (hpre c)
  obtain ⟨e0, e1, e2, e3, e4⟩ := hagree c
  refine ⟨?_, ?_, (h c).2.2⟩
  · rw [(h c).1, Cert.ReferenceIdeal.Read.val_main_v39_eq, e0, e1, e2, e3, e4]
    exact Cert.ReferenceIdeal.RefValue.out_eq _ _ _ _ _ f0 f1 f2 f3
  · rw [(h c).2.1, Cert.ReferenceIdeal.Read.val_main_v20_eq, e0, e1, e2, e3]
    exact Cert.ReferenceIdeal.RefValue.sims_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
